-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x8 : Shape := ⟨2, ![1000000, 8]⟩
abbrev S2x16000000 : Shape := ⟨2, ![2, 16000000]⟩
abbrev S16000000 : Shape := ⟨1, ![16000000]⟩
abbrev S1000000x16 : Shape := ⟨2, ![1000000, 16]⟩
abbrev S8x64 : Shape := ⟨2, ![8, 64]⟩
abbrev S64 : Shape := ⟨1, ![64]⟩
abbrev S16x64 : Shape := ⟨2, ![16, 64]⟩
abbrev S3x16 : Shape := ⟨2, ![3, 16]⟩
abbrev S4x16 : Shape := ⟨2, ![4, 16]⟩
abbrev S16x1 : Shape := ⟨2, ![16, 1]⟩
abbrev S1 : Shape := ⟨1, ![1]⟩
abbrev S_ : Shape := ⟨0, ![]⟩

class Facts : Prop where
  bcast_S_S1000000x8 : S_.BroadcastsInDim S1000000x8 (![] : Fin 0 → Fin S1000000x8.rank)
  reducesTo_S1000000x8_S_d0_1 : S1000000x8.ReducesTo [0, 1] S_
  h_S_ : 0 < S_.numel
  bcast_S_S16000000 : S_.BroadcastsInDim S16000000 (![] : Fin 0 → Fin S16000000.rank)
  reducesTo_S16000000_S_d0 : S16000000.ReducesTo [0] S_
  bcast_S_S1000000x16 : S_.BroadcastsInDim S1000000x16 (![] : Fin 0 → Fin S1000000x16.rank)
  reducesTo_S1000000x16_S_d0_1 : S1000000x16.ReducesTo [0, 1] S_
  bcast_S_S8x64 : S_.BroadcastsInDim S8x64 (![] : Fin 0 → Fin S8x64.rank)
  reducesTo_S8x64_S_d0_1 : S8x64.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S3x16 : S_.BroadcastsInDim S3x16 (![] : Fin 0 → Fin S3x16.rank)
  reducesTo_S3x16_S_d0_1 : S3x16.ReducesTo [0, 1] S_
  bcast_S_S4x16 : S_.BroadcastsInDim S4x16 (![] : Fin 0 → Fin S4x16.rank)
  reducesTo_S4x16_S_d0_1 : S4x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S16x1 .f32) (main_v50 : FVec F S16x1 .f32) : IVec S_ 1 :=
  let main_v51 : IVec S16x1 1 := cmpf .olt main_v49 main_v50
  let main_c_19 : IVec S_ 1 := constantI S_ 1 1#1
  let main_v52 : IVec S_ 1 := (fun x v => Host.reduce IntOp.andi x v reducesTo_S16x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S64 .f32) (main_arg9 : FVec F S3x16 .f32) (main_arg10 : FVec F S4x16 .f32) (main_arg11 : FVec F S16x1 .f32) (main_arg12 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S3x16 .f32 := Host.absf main_arg9
  let main_cst_14 : FVec F S_ .f32 := constant S_ .f32 0x7F800000#32
  let main_v40 : FVec F S3x16 .f32 := broadcastInDim S3x16 ![] bcast_S_S3x16 main_cst_14
  let main_v41 : IVec S3x16 1 := cmpf .olt main_v39 main_v40
  let main_c_15 : IVec S_ 1 := constantI S_ 1 1#1
  let main_v42 : IVec S_ 1 := (fun x v => Host.reduce IntOp.andi x v reducesTo_S3x16_S_d0_1 h_S_) main_v41 main_c_15
  let main_v43 : IVec S_ 1 := andi main_v38 main_v42
  let main_v44 : FVec F S4x16 .f32 := Host.absf main_arg10
  let main_cst_16 : FVec F S_ .f32 := constant S_ .f32 0x7F800000#32
  let main_v45 : FVec F S4x16 .f32 := broadcastInDim S4x16 ![] bcast_S_S4x16 main_cst_16
  let main_v46 : IVec S4x16 1 := cmpf .olt main_v44 main_v45
  let main_c_17 : IVec S_ 1 := constantI S_ 1 1#1
  let main_v47 : IVec S_ 1 := (fun x v => Host.reduce IntOp.andi x v reducesTo_S4x16_S_d0_1 h_S_) main_v46 main_c_17
  let main_v48 : IVec S_ 1 := andi main_v43 main_v47
  let main_v49 : FVec F S16x1 .f32 := Host.absf main_arg11
  let main_cst_18 : FVec F S_ .f32 := constant S_ .f32 0x7F800000#32
  let main_v50 : FVec F S16x1 .f32 := broadcastInDim S16x1 ![] bcast_S_S16x1 main_cst_18
  fn_part3 (F := F) main_arg12 main_v48 main_v49 main_v50

def fn_part1 {F : FTy → Type} [FloatOps F] (main_arg5 : FVec F S8x64 .f32) (main_arg6 : FVec F S64 .f32) (main_arg7 : FVec F S16x64 .f32) (main_arg8 : FVec F S64 .f32) (main_arg9 : FVec F S3x16 .f32) (main_arg10 : FVec F S4x16 .f32) (main_arg11 : FVec F S16x1 .f32) (main_arg12 : FVec F S1 .f32) (main_v13 : IVec S_ 1) (main_v16 : IVec S1000000x16 1) : IVec S_ 1 :=
  let main_c_5 : IVec S_ 1 := constantI S_ 1 1#1
  let main_v17 : IVec S_ 1 := (fun x v => Host.reduce IntOp.andi x v reducesTo_S1000000x16_S_d0_1 h_S_) main_v16 main_c_5
  let main_v18 : IVec S_ 1 := andi main_v13 main_v17
  let main_v19 : FVec F S8x64 .f32 := Host.absf main_arg5
  let main_cst_6 : FVec F S_ .f32 := constant S_ .f32 0x7F800000#32
  let main_v20 : FVec F S8x64 .f32 := broadcastInDim S8x64 ![] bcast_S_S8x64 main_cst_6
  let main_v21 : IVec S8x64 1 := cmpf .olt main_v19 main_v20
  let main_c_7 : IVec S_ 1 := constantI S_ 1 1#1
  let main_v22 : IVec S_ 1 := (fun x v => Host.reduce IntOp.andi x v reducesTo_S8x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S16x64 .f32 := Host.absf main_arg7
  let main_cst_10 : FVec F S_ .f32 := constant S_ .f32 0x7F800000#32
  let main_v30 : FVec F S16x64 .f32 := broadcastInDim S16x64 ![] bcast_S_S16x64 main_cst_10
  let main_v31 : IVec S16x64 1 := cmpf .olt main_v29 main_v30
  let main_c_11 : IVec S_ 1 := constantI S_ 1 1#1
  let main_v32 : IVec S_ 1 := (fun x v => Host.reduce IntOp.andi x v reducesTo_S16x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S1000000x8 .f32) (main_arg1 : IVec S2x16000000 32) (main_arg2 : FVec F S16000000 .f32) (main_arg3 : FVec F S1000000x16 .f32) (main_arg4 : FVec F S1000000x16 .f32) (main_arg5 : FVec F S8x64 .f32) (main_arg6 : FVec F S64 .f32) (main_arg7 : FVec F S16x64 .f32) (main_arg8 : FVec F S64 .f32) (main_arg9 : FVec F S3x16 .f32) (main_arg10 : FVec F S4x16 .f32) (main_arg11 : FVec F S16x1 .f32) (main_arg12 : FVec F S1 .f32) : IVec S_ 1 :=
  let main_v0 : FVec F S1000000x8 .f32 := Host.absf main_arg0
  let main_cst : FVec F S_ .f32 := constant S_ .f32 0x7F800000#32
  let main_v1 : FVec F S1000000x8 .f32 := broadcastInDim S1000000x8 ![] bcast_S_S1000000x8 main_cst
  let main_v2 : IVec S1000000x8 1 := cmpf .olt main_v0 main_v1
  let main_c : IVec S_ 1 := constantI S_ 1 1#1
  let main_v3 : IVec S_ 1 := (fun x v => Host.reduce IntOp.andi x v reducesTo_S1000000x8_S_d0_1 h_S_) main_v2 main_c
  let main_v4 : FVec F S16000000 .f32 := Host.absf main_arg2
  let main_cst_0 : FVec F S_ .f32 := constant S_ .f32 0x7F800000#32
  let main_v5 : FVec F S16000000 .f32 := broadcastInDim S16000000 ![] bcast_S_S16000000 main_cst_0
  let main_v6 : IVec S16000000 1 := cmpf .olt main_v4 main_v5
  let main_c_1 : IVec S_ 1 := constantI S_ 1 1#1
  let main_v7 : IVec S_ 1 := (fun x v => Host.reduce IntOp.andi x v reducesTo_S16000000_S_d0 h_S_) main_v6 main_c_1
  let main_v8 : IVec S_ 1 := andi main_v3 main_v7
  let main_v9 : FVec F S1000000x16 .f32 := Host.absf main_arg3
  let main_cst_2 : FVec F S_ .f32 := constant S_ .f32 0x7F800000#32
  let main_v10 : FVec F S1000000x16 .f32 := broadcastInDim S1000000x16 ![] bcast_S_S1000000x16 main_cst_2
  let main_v11 : IVec S1000000x16 1 := cmpf .olt main_v9 main_v10
  let main_c_3 : IVec S_ 1 := constantI S_ 1 1#1
  let main_v12 : IVec S_ 1 := (fun x v => Host.reduce IntOp.andi x v reducesTo_S1000000x16_S_d0_1 h_S_) main_v11 main_c_3
  let main_v13 : IVec S_ 1 := andi main_v8 main_v12
  let main_v14 : FVec F S1000000x16 .f32 := Host.absf main_arg4
  let main_cst_4 : FVec F S_ .f32 := constant S_ .f32 0x7F800000#32
  let main_v15 : FVec F S1000000x16 .f32 := broadcastInDim S1000000x16 ![] bcast_S_S1000000x16 main_cst_4
  let main_v16 : IVec S1000000x16 1 := cmpf .olt main_v14 main_v15
  fn_part1 (F := F) main_arg5 main_arg6 main_arg7 main_arg8 main_arg9 main_arg10 main_arg11 main_arg12 main_v13 main_v16
-- ==== Kernel.lean ====
abbrev S1000000x8 : Shape := ⟨2, ![1000000, 8]⟩
abbrev S2x16000000 : Shape := ⟨2, ![2, 16000000]⟩
abbrev S16000000 : Shape := ⟨1, ![16000000]⟩
abbrev S1000000x16 : Shape := ⟨2, ![1000000, 16]⟩
abbrev S8x64 : Shape := ⟨2, ![8, 64]⟩
abbrev S64 : Shape := ⟨1, ![64]⟩
abbrev S16x64 : Shape := ⟨2, ![16, 64]⟩
abbrev S3x16 : Shape := ⟨2, ![3, 16]⟩
abbrev S4x16 : Shape := ⟨2, ![4, 16]⟩
abbrev S16x1 : Shape := ⟨2, ![16, 1]⟩
abbrev S1 : Shape := ⟨1, ![1]⟩
abbrev S1000000x1 : Shape := ⟨2, ![1000000, 1]⟩
abbrev S2000x8 : Shape := ⟨2, ![2000, 8]⟩
abbrev S2000x16 : Shape := ⟨2, ![2000, 16]⟩
abbrev S2000x1 : Shape := ⟨2, ![2000, 1]⟩
abbrev S2000x64 : Shape := ⟨2, ![2000, 64]⟩
abbrev S1x64 : Shape := ⟨2, ![1, 64]⟩
abbrev S1x16 : Shape := ⟨2, ![1, 16]⟩
abbrev S16 : Shape := ⟨1, ![16]⟩
abbrev S1x1 : Shape := ⟨2, ![1, 1]⟩

abbrev nBuf : Space → Nat
  | .hbm => 16
  | .vmem => 20
  | .smem => 0
  | _ => 0

abbrev bufTy : (tb : Table) → Fin (tcTables nBuf tb) → BufTy
  | .hbm, ⟨0, _⟩ => ⟨S1000000x8, .f32⟩
  | .hbm, ⟨1, _⟩ => ⟨S2x16000000, .i32⟩
  | .hbm, ⟨2, _⟩ => ⟨S16000000, .f32⟩
  | .hbm, ⟨3, _⟩ => ⟨S1000000x16, .f32⟩
  | .hbm, ⟨4, _⟩ => ⟨S1000000x16, .f32⟩
  | .hbm, ⟨5, _⟩ => ⟨S8x64, .f32⟩
  | .hbm, ⟨6, _⟩ => ⟨S64, .f32⟩
  | .hbm, ⟨7, _⟩ => ⟨S16x64, .f32⟩
  | .hbm, ⟨8, _⟩ => ⟨S64, .f32⟩
  | .hbm, ⟨9, _⟩ => ⟨S3x16, .f32⟩
  | .hbm, ⟨10, _⟩ => ⟨S4x16, .f32⟩
  | .hbm, ⟨11, _⟩ => ⟨S16x1, .f32⟩
  | .hbm, ⟨12, _⟩ => ⟨S1, .f32⟩
  | .hbm, ⟨13, _⟩ => ⟨S1000000x1, .f32⟩
  | .hbm, ⟨14, _⟩ => ⟨S1000000x16, .f32⟩
  | .hbm, ⟨15, _⟩ => ⟨S1000000x16, .f32⟩
  | .local _ .vmem, ⟨0, _⟩ => ⟨S2000x8, .f32⟩
  | .local _ .vmem, ⟨1, _⟩ => ⟨S2000x8, .f32⟩
  | .local _ .vmem, ⟨2, _⟩ => ⟨S2000x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S8x64, .f32⟩
  | .local _ .vmem, ⟨7, _⟩ => ⟨S64, .f32⟩
  | .local _ .vmem, ⟨8, _⟩ => ⟨S16x64, .f32⟩
  | .local _ .vmem, ⟨9, _⟩ => ⟨S64, .f32⟩
  | .local _ .vmem, ⟨10, _⟩ => ⟨S3x16, .f32⟩
  | .local _ .vmem, ⟨11, _⟩ => ⟨S4x16, .f32⟩
  | .local _ .vmem, ⟨12, _⟩ => ⟨S16x1, .f32⟩
  | .local _ .vmem, ⟨13, _⟩ => ⟨S1, .f32⟩
  | .local _ .vmem, ⟨14, _⟩ => ⟨S2000x1, .f32⟩
  | .local _ .vmem, ⟨15, _⟩ => ⟨S2000x1, .f32⟩
  | .local _ .vmem, ⟨16, _⟩ => ⟨S2000x16, .f32⟩
  | .local _ .vmem, ⟨17, _⟩ => ⟨S2000x16, .f32⟩
  | .local _ .vmem, ⟨18, _⟩ => ⟨S2000x16, .f32⟩
  | .local _ .vmem, ⟨19, _⟩ => ⟨S2000x16, .f32⟩
  | _, _ => ⟨S1000000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2000x16 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2000x16 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  inb_S2000x8_S2000x8_0_0 : ∀ a, (![0, 0] : Fin 2 → Nat) a + S2000x8.size a ≤ S2000x8.size a
  h_S2000x8 : 0 < S2000x8.numel
  inb_S2000x16_S2000x16_0_0 : ∀ a, (![0, 0] : Fin 2 → Nat) a + S2000x16.size a ≤ S2000x16.size a
  h_S2000x16 : 0 < S2000x16.numel
  bitsLt_bf16_f32 : FTy.bits .bf16 < FTy.bits .f32
  inb_S8x64_S8x64_0_0 : ∀ a, (![0, 0] : Fin 2 → Nat) a + S8x64.size a ≤ S8x64.size a
  h_S8x64 : 0 < S8x64.numel
  inb_S16x64_S16x64_0_0 : ∀ a, (![0, 0] : Fin 2 → Nat) a + S16x64.size a ≤ S16x64.size a
  h_S16x64 : 0 < S16x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  slices_S2000x64_o0_0_S2000x16 : S2000x64.Slices ![0, 0] S2000x16
  slices_S2000x64_o0_16_S2000x16 : S2000x64.Slices ![0, 16] S2000x16
  slices_S2000x64_o0_32_S2000x16 : S2000x64.Slices ![0, 32] S2000x16
  slices_S2000x64_o0_48_S2000x16 : S2000x64.Slices ![0, 48] S2000x16
  inb_S3x16_S3x16_0_0 : ∀ a, (![0, 0] : Fin 2 → Nat) a + S3x16.size a ≤ S3x16.size a
  h_S3x16 : 0 < S3x16.numel
  inb_S4x16_S4x16_0_0 : ∀ a, (![0, 0] : Fin 2 → Nat) a + S4x16.size a ≤ S4x16.size a
  h_S4x16 : 0 < S4x16.numel
  slices_S3x16_o0_0_S1x16 : S3x16.Slices ![0, 0] S1x16
  shapeCasts_S1x16_S16 : S1x16.ShapeCasts S16
  shapeCasts_S16_S1x16 : S16.ShapeCasts S1x16
  broadcasts_S1x16_S2000x16 : S1x16.Broadcasts S2000x16
  slices_S4x16_o0_0_S1x16 : S4x16.Slices ![0, 0] S1x16
  slices_S3x16_o1_0_S1x16 : S3x16.Slices ![1, 0] S1x16
  slices_S4x16_o1_0_S1x16 : S4x16.Slices ![1, 0] S1x16
  slices_S4x16_o2_0_S1x16 : S4x16.Slices ![2, 0] S1x16
  slices_S3x16_o2_0_S1x16 : S3x16.Slices ![2, 0] S1x16
  slices_S4x16_o3_0_S1x16 : S4x16.Slices ![3, 0] S1x16
  inb_S16x1_S16x1_0_0 : ∀ a, (![0, 0] : Fin 2 → Nat) a + S16x1.size a ≤ S16x1.size a
  h_S16x1 : 0 < S16x1.numel
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  dot_S2000x8_S8x64_S2000x64_1_0_0_1_n_n_wf : DotDims.WF S2000x8 S8x64 S2000x64 [1] [0] [0] [1] [] []
  dot_S2000x16_S16x64_S2000x64_1_0_0_1_n_n_wf : DotDims.WF S2000x16 S16x64 S2000x64 [1] [0] [0] [1] [] []
  dot_S2000x16_S16x1_S2000x1_1_0_0_1_n_n_wf : DotDims.WF S2000x16 S16x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x8.size a ≤ S1000000x8.size a
  hwx0_0 : ∀ i : grid0.Coords, EltTy.bits .f32 = 32 ∨ (Rect.block (s := S1000000x8) S2000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x16.size a ≤ S1000000x16.size a
  hwx0_1 : ∀ i : grid0.Coords, EltTy.bits .f32 = 32 ∨ (Rect.block (s := S1000000x16) S2000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S1000000x16.size a
  hwx0_2 : ∀ i : grid0.Coords, EltTy.bits .f32 = 32 ∨ (Rect.block (s := S1000000x16) S2000x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x64.size a ≤ S8x64.size a
  hwx0_3 : ∀ i : grid0.Coords, EltTy.bits .f32 = 32 ∨ (Rect.block (s := S8x64) S8x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x64.size a ≤ S16x64.size a
  hwx0_5 : ∀ i : grid0.Coords, EltTy.bits .f32 = 32 ∨ (Rect.block (s := S16x64) S16x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x16.size a ≤ S3x16.size a
  hwx0_7 : ∀ i : grid0.Coords, EltTy.bits .f32 = 32 ∨ (Rect.block (s := S3x16) S3x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x16.size a ≤ S4x16.size a
  hwx0_8 : ∀ i : grid0.Coords, EltTy.bits .f32 = 32 ∨ (Rect.block (s := S4x16) S4x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x1.size a ≤ S16x1.size a
  hwx0_9 : ∀ i : grid0.Coords, EltTy.bits .f32 = 32 ∨ (Rect.block (s := S16x1) S16x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x1.size a ≤ S1000000x1.size a
  hwx0_11 : ∀ i : grid0.Coords, EltTy.bits .f32 = 32 ∨ (Rect.block (s := S1000000x1) S2000x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x16.size a ≤ S1000000x16.size a
  hwx0_12 : ∀ i : grid0.Coords, EltTy.bits .f32 = 32 ∨ (Rect.block (s := S1000000x16) S2000x16.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x16.size a ≤ S1000000x16.size a
  hwx0_13 : ∀ i : grid0.Coords, EltTy.bits .f32 = 32 ∨ (Rect.block (s := S1000000x16) S2000x16.size (cc0_transform_13 i) (hinb0_13 i)).WholeWords (EltTy.packing .f32)

variable [Facts₀]

def dot_S2000x8_S8x64_S2000x64_1_0_0_1_n_n : DotDims S2000x8 S8x64 S2000x64 where
  lhsContracting := [1]
  rhsContracting := [0]
  lhsNonContracting := [0]
  rhsNonContracting := [1]
  lhsBatch := []
  rhsBatch := []
  wf := dot_S2000x8_S8x64_S2000x64_1_0_0_1_n_n_wf
def dot_S2000x16_S16x64_S2000x64_1_0_0_1_n_n : DotDims S2000x16 S16x64 S2000x64 where
  lhsContracting := [1]
  rhsContracting := [0]
  lhsNonContracting := [0]
  rhsNonContracting := [1]
  lhsBatch := []
  rhsBatch := []
  wf := dot_S2000x16_S16x64_S2000x64_1_0_0_1_n_n_wf
def dot_S2000x16_S16x1_S2000x1_1_0_0_1_n_n : DotDims S2000x16 S16x1 S2000x1 where
  lhsContracting := [1]
  rhsContracting := [0]
  lhsNonContracting := [0]
  rhsNonContracting := [1]
  lhsBatch := []
  rhsBatch := []
  wf := dot_S2000x16_S16x1_S2000x1_1_0_0_1_n_n_wf

abbrev win0_0 : Pipeline.Window sig grid0 :=
  Pipeline.Window.ofSpec (Memref.whole main_arg0) S2000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S2000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S8x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S16x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S3x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S4x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S16x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0_0) S2000x1.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_1) S2000x16.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v0_2) S2000x16.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S1000000x8 : Shape := ⟨2, ![1000000, 8]⟩
abbrev S2x16000000 : Shape := ⟨2, ![2, 16000000]⟩
abbrev S16000000 : Shape := ⟨1, ![16000000]⟩
abbrev S1000000x16 : Shape := ⟨2, ![1000000, 16]⟩
abbrev S8x64 : Shape := ⟨2, ![8, 64]⟩
abbrev S64 : Shape := ⟨1, ![64]⟩
abbrev S16x64 : Shape := ⟨2, ![16, 64]⟩
abbrev S3x16 : Shape := ⟨2, ![3, 16]⟩
abbrev S4x16 : Shape := ⟨2, ![4, 16]⟩
abbrev S16x1 : Shape := ⟨2, ![16, 1]⟩
abbrev S1 : Shape := ⟨1, ![1]⟩
abbrev S1000000x64 : Shape := ⟨2, ![1000000, 64]⟩
abbrev S1x64 : Shape := ⟨2, ![1, 64]⟩
abbrev S1x16 : Shape := ⟨2, ![1, 16]⟩
abbrev S16 : Shape := ⟨1, ![16]⟩
abbrev S_ : Shape := ⟨0, ![]⟩
abbrev S1000000x1 : Shape := ⟨2, ![1000000, 1]⟩
abbrev S1x1 : Shape := ⟨2, ![1, 1]⟩

abbrev nBuf : Space → Nat
  | .hbm => 101
  | .vmem => 0
  | .smem => 0
  | _ => 0

abbrev bufTy : (tb : Table) → Fin (tcTables nBuf tb) → BufTy
  | .hbm, ⟨0, _⟩ => ⟨S1000000x8, .f32⟩
  | .hbm, ⟨1, _⟩ => ⟨S2x16000000, .i32⟩
  | .hbm, ⟨2, _⟩ => ⟨S16000000, .f32⟩
  | .hbm, ⟨3, _⟩ => ⟨S1000000x16, .f32⟩
  | .hbm, ⟨4, _⟩ => ⟨S1000000x16, .f32⟩
  | .hbm, ⟨5, _⟩ => ⟨S8x64, .f32⟩
  | .hbm, ⟨6, _⟩ => ⟨S64, .f32⟩
  | .hbm, ⟨7, _⟩ => ⟨S16x64, .f32⟩
  | .hbm, ⟨8, _⟩ => ⟨S64, .f32⟩
  | .hbm, ⟨9, _⟩ => ⟨S3x16, .f32⟩
  | .hbm, ⟨10, _⟩ => ⟨S4x16, .f32⟩
  | .hbm, ⟨11, _⟩ => ⟨S16x1, .f32⟩
  | .hbm, ⟨12, _⟩ => ⟨S1, .f32⟩
  | .hbm, ⟨13, _⟩ => ⟨S1000000x64, .f32⟩
  | .hbm, ⟨14, _⟩ => ⟨S1x64, .f32⟩
  | .hbm, ⟨15, _⟩ => ⟨S1000000x64, .f32⟩
  | .hbm, ⟨16, _⟩ => ⟨S1000000x64, .f32⟩
  | .hbm, ⟨17, _⟩ => ⟨S1000000x64, .f32⟩
  | .hbm, ⟨18, _⟩ => ⟨S1x64, .f32⟩
  | .hbm, ⟨19, _⟩ => ⟨S1000000x64, .f32⟩
  | .hbm, ⟨20, _⟩ => ⟨S1000000x64, .f32⟩
  | .hbm, ⟨21, _⟩ => ⟨S1000000x64, .f32⟩
  | .hbm, ⟨22, _⟩ => ⟨S1000000x16, .f32⟩
  | .hbm, ⟨23, _⟩ => ⟨S1000000x16, .f32⟩
  | .hbm, ⟨24, _⟩ => ⟨S1000000x16, .f32⟩
  | .hbm, ⟨25, _⟩ => ⟨S1000000x16, .f32⟩
  | .hbm, ⟨26, _⟩ => ⟨S1x16, .f32⟩
  | .hbm, ⟨27, _⟩ => ⟨S16, .f32⟩
  | .hbm, ⟨28, _⟩ => ⟨S1x16, .f32⟩
  | .hbm, ⟨29, _⟩ => ⟨S1000000x16, .f32⟩
  | .hbm, ⟨30, _⟩ => ⟨S1000000x16, .f32⟩
  | .hbm, ⟨31, _⟩ => ⟨S1000000x16, .f32⟩
  | .hbm, ⟨32, _⟩ => ⟨S1x16, .f32⟩
  | .hbm, ⟨33, _⟩ => ⟨S16, .f32⟩
  | .hbm, ⟨34, _⟩ => ⟨S1x16, .f32⟩
  | .hbm, ⟨35, _⟩ => ⟨S1000000x16, .f32⟩
  | .hbm, ⟨36, _⟩ => ⟨S1000000x16, .f32⟩
  | .hbm, ⟨37, _⟩ => ⟨S1000000x16, .f32⟩
  | .hbm, ⟨38, _⟩ => ⟨S1000000x16, .f32⟩
  | .hbm, ⟨39, _⟩ => ⟨S_, .f32⟩
  | .hbm, ⟨40, _⟩ => ⟨S1000000x16, .f32⟩
  | .hbm, ⟨41, _⟩ => ⟨S1000000x16, .f32⟩
  | .hbm, ⟨42, _⟩ => ⟨S_, .f32⟩
  | .hbm, ⟨43, _⟩ => ⟨S1000000x16, .f32⟩
  | .hbm, ⟨44, _⟩ => ⟨S1000000x16, .f32⟩
  | .hbm, ⟨45, _⟩ => ⟨S1x16, .f32⟩
  | .hbm, ⟨46, _⟩ => ⟨S16, .f32⟩
  | .hbm, ⟨47, _⟩ => ⟨S1x16, .f32⟩
  | .hbm, ⟨48, _⟩ => ⟨S1000000x16, .f32⟩
  | .hbm, ⟨49, _⟩ => ⟨S1000000x16, .f32⟩
  | .hbm, ⟨50, _⟩ => ⟨S1000000x16, .f32⟩
  | .hbm, ⟨51, _⟩ => ⟨S1x16, .f32⟩
  | .hbm, ⟨52, _⟩ => ⟨S16, .f32⟩
  | .hbm, ⟨53, _⟩ => ⟨S1x16, .f32⟩
  | .hbm, ⟨54, _⟩ => ⟨S1000000x16, .f32⟩
  | .hbm, ⟨55, _⟩ => ⟨S1000000x16, .f32⟩
  | .hbm, ⟨56, _⟩ => ⟨S1000000x16, .f32⟩
  | .hbm, ⟨57, _⟩ => ⟨S1000000x16, .f32⟩
  | .hbm, ⟨58, _⟩ => ⟨S_, .f32⟩
  | .hbm, ⟨59, _⟩ => ⟨S1000000x16, .f32⟩
  | .hbm, ⟨60, _⟩ => ⟨S1000000x16, .f32⟩
  | .hbm, ⟨61, _⟩ => ⟨S_, .f32⟩
  | .hbm, ⟨62, _⟩ => ⟨S1000000x16, .f32⟩
  | .hbm, ⟨63, _⟩ => ⟨S1000000x16, .f32⟩
  | .hbm, ⟨64, _⟩ => ⟨S1x16, .f32⟩
  | .hbm, ⟨65, _⟩ => ⟨S16, .f32⟩
  | .hbm, ⟨66, _⟩ => ⟨S1x16, .f32⟩
  | .hbm, ⟨67, _⟩ => ⟨S1000000x16, .f32⟩
  | .hbm, ⟨68, _⟩ => ⟨S1000000x16, .f32⟩
  | .hbm, ⟨69, _⟩ => ⟨S1000000x16, .f32⟩
  | .hbm, ⟨70, _⟩ => ⟨S1000000x16, .f32⟩
  | .hbm, ⟨71, _⟩ => ⟨S1000000x16, .f32⟩
  | .hbm, ⟨72, _⟩ => ⟨S1000000x16, .f32⟩
  | .hbm, ⟨73, _⟩ => ⟨S1x16, .f32⟩
  | .hbm, ⟨74, _⟩ => ⟨S16, .f32⟩
  | .hbm, ⟨75, _⟩ => ⟨S1x16, .f32⟩
  | .hbm, ⟨76, _⟩ => ⟨S1000000x16, .f32⟩
  | .hbm, ⟨77, _⟩ => ⟨S1000000x16, .f32⟩
  | .hbm, ⟨78, _⟩ => ⟨S1000000x16, .f32⟩
  | .hbm, ⟨79, _⟩ => ⟨S1x16, .f32⟩
  | .hbm, ⟨80, _⟩ => ⟨S16, .f32⟩
  | .hbm, ⟨81, _⟩ => ⟨S1x16, .f32⟩
  | .hbm, ⟨82, _⟩ => ⟨S1000000x16, .f32⟩
  | .hbm, ⟨83, _⟩ => ⟨S1000000x16, .f32⟩
  | .hbm, ⟨84, _⟩ => ⟨S1000000x16, .f32⟩
  | .hbm, ⟨85, _⟩ => ⟨S1000000x16, .f32⟩
  | .hbm, ⟨86, _⟩ => ⟨S_, .f32⟩
  | .hbm, ⟨87, _⟩ => ⟨S1000000x16, .f32⟩
  | .hbm, ⟨88, _⟩ => ⟨S1000000x16, .f32⟩
  | .hbm, ⟨89, _⟩ => ⟨S_, .f32⟩
  | .hbm, ⟨90, _⟩ => ⟨S1000000x16, .f32⟩
  | .hbm, ⟨91, _⟩ => ⟨S1000000x16, .f32⟩
  | .hbm, ⟨92, _⟩ => ⟨S1000000x16, .f32⟩
  | .hbm, ⟨93, _⟩ => ⟨S1000000x16, .f32⟩
  | .hbm, ⟨94, _⟩ => ⟨S_, .f32⟩
  | .hbm, ⟨95, _⟩ => ⟨S1000000x16, .f32⟩
  | .hbm, ⟨96, _⟩ => ⟨S1000000x16, .f32⟩
  | .hbm, ⟨97, _⟩ => ⟨S1000000x1, .f32⟩
  | .hbm, ⟨98, _⟩ => ⟨S1x1, .f32⟩
  | .hbm, ⟨99, _⟩ => ⟨S1000000x1, .f32⟩
  | .hbm, ⟨100, _⟩ => ⟨S1000000x1, .f32⟩
  | _, _ => ⟨S1000000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst : Ref sig .tc := ⟨.hbm, 39, rfl⟩
abbrev main_v26 : Ref sig .tc := ⟨.hbm, 40, rfl⟩
abbrev main_v27 : Ref sig .tc := ⟨.hbm, 41, rfl⟩
abbrev main_cst_0 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_1 : Ref sig .tc := ⟨.hbm, 58, rfl⟩
abbrev main_v43 : Ref sig .tc := ⟨.hbm, 59, rfl⟩
abbrev main_v44 : Ref sig .tc := ⟨.hbm, 60, rfl⟩
abbrev main_cst_2 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_3 : Ref sig .tc := ⟨.hbm, 86, rfl⟩
abbrev main_v69 : Ref sig .tc := ⟨.hbm, 87, rfl⟩
abbrev main_v70 : Ref sig .tc := ⟨.hbm, 88, rfl⟩
abbrev main_cst_4 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_call0_cst : Ref sig .tc := ⟨.hbm, 94, rfl⟩
abbrev main_call0_v0 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  slices_S1000000x64_S1000000x16_0_0 : S1000000x64.Slices ![0, 0] S1000000x16
  slices_S1000000x64_S1000000x16_0_16 : S1000000x64.Slices ![0, 16] S1000000x16
  slices_S1000000x64_S1000000x16_0_32 : S1000000x64.Slices ![0, 32] S1000000x16
  slices_S1000000x64_S1000000x16_0_48 : S1000000x64.Slices ![0, 48] S1000000x16
  slices_S3x16_S1x16_0_0 : S3x16.Slices ![0, 0] S1x16
  shapeCasts_S1x16_S16 : S1x16.ShapeCasts S16
  bcast_S16_S1x16_1 : S16.BroadcastsInDim S1x16 (![1] : Fin 1 → Fin S1x16.rank)
  bcast_S1x16_S1000000x16_0_1 : S1x16.BroadcastsInDim S1000000x16 (![0, 1] : Fin 2 → Fin S1000000x16.rank)
  slices_S4x16_S1x16_0_0 : S4x16.Slices ![0, 0] S1x16
  bcast_S_S1000000x16 : S_.BroadcastsInDim S1000000x16 (![] : Fin 0 → Fin S1000000x16.rank)
  slices_S3x16_S1x16_1_0 : S3x16.Slices ![1, 0] S1x16
  slices_S4x16_S1x16_1_0 : S4x16.Slices ![1, 0] S1x16
  slices_S4x16_S1x16_2_0 : S4x16.Slices ![2, 0] S1x16
  slices_S3x16_S1x16_2_0 : S3x16.Slices ![2, 0] S1x16
  slices_S4x16_S1x16_3_0 : S4x16.Slices ![3, 0] S1x16
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  dot_S1000000x8_S8x64_S1000000x64_1_0_0_1_n_n_wf : DotDims.WF S1000000x8 S8x64 S1000000x64 [1] [0] [0] [1] [] []
  dot_S1000000x16_S16x64_S1000000x64_1_0_0_1_n_n_wf : DotDims.WF S1000000x16 S16x64 S1000000x64 [1] [0] [0] [1] [] []
  dot_S1000000x16_S16x1_S1000000x1_1_0_0_1_n_n_wf : DotDims.WF S1000000x16 S16x1 S1000000x1 [1] [0] [0] [1] [] []

variable [Facts₀]

def dot_S1000000x8_S8x64_S1000000x64_1_0_0_1_n_n : DotDims S1000000x8 S8x64 S1000000x64 where
  lhsContracting := [1]
  rhsContracting := [0]
  lhsNonContracting := [0]
  rhsNonContracting := [1]
  lhsBatch := []
  rhsBatch := []
  wf := dot_S1000000x8_S8x64_S1000000x64_1_0_0_1_n_n_wf
def dot_S1000000x16_S16x64_S1000000x64_1_0_0_1_n_n : DotDims S1000000x16 S16x64 S1000000x64 where
  lhsContracting := [1]
  rhsContracting := [0]
  lhsNonContracting := [0]
  rhsNonContracting := [1]
  lhsBatch := []
  rhsBatch := []
  wf := dot_S1000000x16_S16x64_S1000000x64_1_0_0_1_n_n_wf
def dot_S1000000x16_S16x1_S1000000x1_1_0_0_1_n_n : DotDims S1000000x16 S16x1 S1000000x1 where
  lhsContracting := [1]
  rhsContracting := [0]
  lhsNonContracting := [0]
  rhsNonContracting := [1]
  lhsBatch := []
  rhsBatch := []
  wf := dot_S1000000x16_S16x1_S1000000x1_1_0_0_1_n_n_wf

class Facts : Prop extends Facts₀ where

variable [Facts]
-- ==== Proof.Cell.lean ====
/-
  One node of a peephole LSTM cell with a linear read-out, over the extended reals.

  A node carries a feature row `x` (8 entries), a hidden row `h` and a cell row `c` (16 entries each). The four
  gate pre-activations sit side by side in one row of 64 columns: input gate in columns 0–15, forget gate in
  16–31, candidate in 32–47, output gate in 48–63. Column `q` of that row is

      pre q = x · Wx[:, q] + h · Wh[:, q] + bx[q] + bh[q].

  With peephole weights `wp` (three rows) and gate biases `bg` (four rows), entry `j` of the new cell row and of
  the new hidden row are

      cnew j = σ(pre (16 + j) + wp[1, j] · c j + bg[1, j]) · c j
             + σ(pre j + wp[0, j] · c j + bg[0, j]) · tanh (pre (32 + j) + bg[2, j]),
      hnew j = σ(pre (48 + j) + wp[2, j] · cnew j + bg[3, j]) · tanh (cnew j),

  and the read-out is `∑ k, max (hnew k) 0 · Wl[k, 0] + bl[0]`.

  Everything here is a function of ONE node's three rows and of the shared weights, so a tile of nodes and the
  whole set of nodes compute it alike, node by node.
-/
import Idealize.ShloMosaic.PureOps.Ideal
import Idealize.ShloMosaic.Lib.ValueIdx

noncomputable section

open scoped BigOperators
open Idealize.ShloMosaic Idealize.ShloMosaic.ValueIdx

namespace PeepholeCell

/-- A matrix of extended reals with `a` rows and `b` columns, indexed as the programs index it. -/
abbrev Mat (a b : ℕ) := (⟨2, ![a, b]⟩ : Shape).Idx → EReal
/-- A vector of extended reals with `a` entries. -/
abbrev Vct (a : ℕ) := (⟨1, ![a]⟩ : Shape).Idx → EReal

/-- Column of the input gate's entry `j` in the row of 64 pre-activations. -/
abbrev colI (j : Fin 16) : Fin 64 := ⟨j.val, by omega⟩
/-- Column of the forget gate's entry `j`. -/
abbrev colF (j : Fin 16) : Fin 64 := ⟨j.val + 16, by omega⟩
/-- Column of the candidate's entry `j`. -/
abbrev colC (j : Fin 16) : Fin 64 := ⟨j.val + 32, by omega⟩
/-- Column of the output gate's entry `j`. -/
abbrev colO (j : Fin 16) : Fin 64 := ⟨j.val + 48, by omega⟩

/-- Row `p` of a matrix. -/
def row {R n : ℕ} (A : Mat R n) (p : Fin R) : Fin n → EReal := fun k => A (ix2 p k)

section node
variable (x : Fin 8 → EReal) (h c : Fin 16 → EReal)
variable (Wx : Mat 8 64) (bx : Vct 64) (Wh : Mat 16 64) (bh : Vct 64) (wp : Mat 3 16) (bg : Mat 4 16)

/-- Column `q` of the node's gate pre-activations: both products first, then the two biases. -/
def pre (q : Fin 64) : EReal :=
  (∑ k : Fin 8, x k * Wx (ix2 k q)) + (∑ k : Fin 16, h k * Wh (ix2 k q)) + bx (ix1 q) + bh (ix1 q)

/-- The same column with each bias added to its own product first: addition of extended reals is commutative
    and associative, so no finiteness is needed. -/
theorem pre_eq_biased (q : Fin 64) :
    pre x h Wx bx Wh bh q
      = ((∑ k : Fin 8, x k * Wx (ix2 k q)) + bx (ix1 q)) + ((∑ k : Fin 16, h k * Wh (ix2 k q)) + bh (ix1 q)) := by
  unfold pre
  rw [add_assoc, add_add_add_comm]

/-- Entry `j` of the node's new cell row. -/
def cnew (j : Fin 16) : EReal :=
  Ideal.logistic (pre x h Wx bx Wh bh (colF j) + wp (ix2 1 j) * c j + bg (ix2 1 j)) * c j
    + Ideal.logistic (pre x h Wx bx Wh bh (colI j) + wp (ix2 0 j) * c j + bg (ix2 0 j))
      * Ideal.tanh (pre x h Wx bx Wh bh (colC j) + bg (ix2 2 j))

/-- Entry `j` of the node's new hidden row. -/
def hnew (j : Fin 16) : EReal :=
  Ideal.logistic (pre x h Wx bx Wh bh (colO j) + wp (ix2 2 j) * cnew x h c Wx bx Wh bh wp bg j + bg (ix2 3 j))
    * Ideal.tanh (cnew x h c Wx bx Wh bh wp bg j)

/-- The node's read-out: the new hidden row clamped at zero, times the read-out column, plus its bias. -/
def out (Wl : Mat 16 1) (bl : Vct 1) : EReal :=
  (∑ k : Fin 16, max (hnew x h c Wx bx Wh bh wp bg k) 0 * Wl (ix2 k 0)) + bl (ix1 0)

end node

/-! ## The three results for a whole set of `R` nodes -/

section nodes
variable {R : ℕ} (X : Mat R 8) (H C : Mat R 16)
variable (Wx : Mat 8 64) (bx : Vct 64) (Wh : Mat 16 64) (bh : Vct 64) (wp : Mat 3 16) (bg : Mat 4 16)

/-- The new cell rows of `R` nodes. -/
def cnewAll : Mat R 16 := fun i => cnew (row X (i 0)) (row H (i 0)) (row C (i 0)) Wx bx Wh bh wp bg (i 1)

/-- The new hidden rows of `R` nodes. -/
def hnewAll : Mat R 16 := fun i => hnew (row X (i 0)) (row H (i 0)) (row C (i 0)) Wx bx Wh bh wp bg (i 1)

/-- The read-outs of `R` nodes, one column. -/
def outAll (Wl : Mat 16 1) (bl : Vct 1) : Mat R 1 :=
  fun i => out (row X (i 0)) (row H (i 0)) (row C (i 0)) Wx bx Wh bh wp bg Wl bl

end nodes

/-! ## A tile of nodes and the whole set of nodes compute alike

Each result at a node depends on that node's three rows, on the shared weights and on the column asked for. So when a
node of one family (a tile) has the same three rows as a node of another (the whole set), the results agree there. -/

section alike
variable {R R' : ℕ} (X : Mat R 8) (H C : Mat R 16) (X' : Mat R' 8) (H' C' : Mat R' 16)
variable (Wx Wx' : Mat 8 64) (bx bx' : Vct 64) (Wh Wh' : Mat 16 64) (bh bh' : Vct 64) (wp wp' : Mat 3 16) (bg bg' : Mat 4 16)

theorem cnewAll_alike (i : (⟨2, ![R, 16]⟩ : Shape).Idx) (i' : (⟨2, ![R', 16]⟩ : Shape).Idx)
    (hX : row X (i 0) = row X' (i' 0)) (hH : row H (i 0) = row H' (i' 0)) (hC : row C (i 0) = row C' (i' 0))
    (hWx : Wx = Wx') (hbx : bx = bx') (hWh : Wh = Wh') (hbh : bh = bh') (hwp : wp = wp') (hbg : bg = bg')
    (hj : (i 1 : Fin 16) = i' 1) :
    cnewAll X H C Wx bx Wh bh wp bg i = cnewAll X' H' C' Wx' bx' Wh' bh' wp' bg' i' := by
  subst hWx hbx hWh hbh hwp hbg
  unfold cnewAll
  rw [hX, hH, hC, hj]

theorem hnewAll_alike (i : (⟨2, ![R, 16]⟩ : Shape).Idx) (i' : (⟨2, ![R', 16]⟩ : Shape).Idx)
    (hX : row X (i 0) = row X' (i' 0)) (hH : row H (i 0) = row H' (i' 0)) (hC : row C (i 0) = row C' (i' 0))
    (hWx : Wx = Wx') (hbx : bx = bx') (hWh : Wh = Wh') (hbh : bh = bh') (hwp : wp = wp') (hbg : bg = bg')
    (hj : (i 1 : Fin 16) = i' 1) :
    hnewAll X H C Wx bx Wh bh wp bg i = hnewAll X' H' C' Wx' bx' Wh' bh' wp' bg' i' := by
  subst hWx hbx hWh hbh hwp hbg
  unfold hnewAll
  rw [hX, hH, hC, hj]

theorem outAll_alike (Wl Wl' : Mat 16 1) (bl bl' : Vct 1)
    (i : (⟨2, ![R, 1]⟩ : Shape).Idx) (i' : (⟨2, ![R', 1]⟩ : Shape).Idx)
    (hX : row X (i 0) = row X' (i' 0)) (hH : row H (i 0) = row H' (i' 0)) (hC : row C (i 0) = row C' (i' 0))
    (hWx : Wx = Wx') (hbx : bx = bx') (hWh : Wh = Wh') (hbh : bh = bh') (hwp : wp = wp') (hbg : bg = bg')
    (hWl : Wl = Wl') (hbl : bl = bl') :
    outAll X H C Wx bx Wh bh wp bg Wl bl i = outAll X' H' C' Wx' bx' Wh' bh' wp' bg' Wl' bl' i' := by
  subst hWx hbx hWh hbh hwp hbg hWl hbl
  unfold outAll
  rw [hX, hH, hC]

end alike

end PeepholeCell

end
-- ==== Proof.LibMatmul.lean ====
/-
  A plain matrix product read at an entry, over the extended reals.

  A two-dimensional contraction `[M, K] × [K, N] → [M, N]` whose dimension numbers contract the left operand's
  second axis with the right operand's first, with no batch axis, accumulated into the zero matrix, has at the
  entry `(p, q)` the value `∑ k, lhs (p, k) * rhs (k, q)`: the textbook sum over the `K` positions of the
  contracted axis, with no order or grouping left in it.
-/
import Idealize.ShloMosaic.PureOps.Ideal.Laws
import Idealize.ShloMosaic.Lib.ValueIdx

noncomputable section

open scoped BigOperators
open Idealize.ShloMosaic Idealize.ShloMosaic.ValueIdx

namespace PlainMatmul

variable {M K N : ℕ}

/-- The dimension numbers of a plain product: rows times columns, one contracted axis, no batch axis. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank (h : IsPlain d) : d.contr.rank = 1 := by rw [d.rank_contr, h.lc]; rfl

theorem IsPlain.size (h : IsPlain d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsPlain.lhs_row (h : IsPlain d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at column `q`. -/
theorem IsPlain.rhs_col (h : IsPlain d) (j : (⟨2, ![M, N]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A plain product into the zero matrix, at the entry `(p, q)`, is the sum over the contracted axis of the
    products of the left operand's row `p` with the right operand's column `q`. -/
theorem apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 k q) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.KernelBlock.lean ====
/-
  What the kernel's body leaves in its three output tiles, read entry by entry over the extended reals.

  The body works on a tile of 2000 nodes: `P0`, `P1`, `P7` are the tile's rows of `x`, `h`, `c`; `P2 … P6`, `P8`
  the shared weights. Narrowing an operand to bf16 is the identity on extended reals, and a matrix product into
  the zero matrix is the plain sum over the contracted axis, so row `r` of the 2000×64 matrix of gate
  pre-activations is `PeepholeCell.pre` of node `r`'s rows, and the stored tiles are `cnew`, `hnew` and `out` of
  node `r`.
-/
import proofs.«144452_j25890062860561_2_alg».proof.Proof.Gen.KernelIdeal.Value
import proofs.«144452_j25890062860561_2_alg».proof.Proof.Cell
import proofs.«144452_j25890062860561_2_alg».proof.Proof.LibMatmul
import Idealize.ShloMosaic.Lib.ValueLayout

noncomputable section

open scoped BigOperators
open Idealize.ShloMosaic Idealize.ShloMosaic.ValueIdx PeepholeCell

namespace Cert.KernelIdeal.Block

open Cert.KernelIdeal Cert.KernelIdeal.Gen

/-- A bias vector of 64 entries laid out as one row and repeated down the tile's 2000 rows reads its entry `q`
    in column `q` of every row. -/
theorem bias_row (v : Vec Ideal S64 .f32) (r : Fin 2000) (q : Fin 64) :
    broadcastTo S2000x64 (shapeCast S1x64 v shapeCasts_S64_S1x64) broadcasts_S1x64_S2000x64 (ix2 r q) = v (ix1 q) :=
  (broadcastTo_1b_ab_apply (shapeCast S1x64 v shapeCasts_S64_S1x64) broadcasts_S1x64_S2000x64 r q).trans
    (shapeCast_a_1a_apply v shapeCasts_S64_S1x64 0 q)

/-- Row `r`, column `q` of the tile's gate pre-activations. -/
theorem pay1_at (P0 : Vec Ideal S2000x8 .f32) (P1 : Vec Ideal S2000x16 .f32) (P2 : Vec Ideal S8x64 .f32)
    (P3 : Vec Ideal S16x64 .f32) (P4 P5 : Vec Ideal S64 .f32) (r : Fin 2000) (q : Fin 64) :
    k0_pay1 P0 P1 P2 P3 P4 P5 (ix2 r q)
      = pre (row (R := 2000) (n := 8) P0 r) (row (R := 2000) (n := 16) P1 r) P2 P4 P3 P5 q := by
  unfold k0_pay1 pre
  refine congrArg₂ (· + ·) (congrArg₂ (· + ·) (congrArg₂ (· + ·) ?_ ?_) ?_) ?_
  · exact PlainMatmul.apply (d := dot_S2000x8_S8x64_S2000x64_1_0_0_1_n_n) ⟨rfl, rfl, rfl, rfl, rfl, rfl⟩ none
      (truncf .bf16 P0 bitsLt_bf16_f32) (truncf .bf16 P2 bitsLt_bf16_f32) r q
  · exact PlainMatmul.apply (d := dot_S2000x16_S16x64_S2000x64_1_0_0_1_n_n) ⟨rfl, rfl, rfl, rfl, rfl, rfl⟩ none
      (truncf .bf16 P1 bitsLt_bf16_f32) (truncf .bf16 P3 bitsLt_bf16_f32) r q
  · exact bias_row P4 r q
  · exact bias_row P5 r q

/-- The proof that two indices of a matrix are equal, coordinate by coordinate. -/
local macro "idx2" : tactic =>
  `(tactic| exact funext fun a => Fin.ext (by match a with | ⟨0, _⟩ => rfl | ⟨1, _⟩ => rfl))

/-- A store through the tile's whole rectangle puts entry `x` at `x`. -/
theorem whole_idx (x : S2000x16.Idx) : r0_1.idx x = x :=
  funext fun a => Fin.ext (by
    match a with
    | ⟨0, _⟩ => show 0 + 1 * (x 0).val = (x 0).val; omega
    | ⟨1, _⟩ => show 0 + 1 * (x 1).val = (x 1).val; omega)

section tile
variable (P0 : Vec Ideal S2000x8 .f32) (P1 : Vec Ideal S2000x16 .f32) (P2 : Vec Ideal S8x64 .f32)
  (P3 : Vec Ideal S16x64 .f32) (P4 P5 : Vec Ideal S64 .f32) (P6 : Vec Ideal S3x16 .f32) (P7 : Vec Ideal S2000x16 .f32)
  (P8 : Vec Ideal S4x16 .f32)

/-- The tile's new cell state, as one function of the tile's entries: at `(r, j)` it is node `r`'s `cnew j`. Each
    operand is read where the body's column slices and row broadcasts put it: the forget gate in columns 16–31, the
    input gate in 0–15, the candidate in 32–47, rows 1, 0 of the peephole weights and rows 1, 0, 2 of the biases. -/
theorem cnew_tile (r : Fin 2000) (j : Fin 16) :
    Value.E13 (F := Ideal) P0 P1 P2 P3 P4 P5 P6 P7 P8 (ix2 r j)
      = cnew (row (R := 2000) (n := 8) P0 r) (row (R := 2000) (n := 16) P1 r) (row (R := 2000) (n := 16) P7 r)
          P2 P4 P3 P5 P6 P8 j := by
  have i0 : Value.ix13_0 (ix2 r j) = ix2 r (colF j) := by idx2
  have i1 : Value.ix13_1 (ix2 r j) = ix2 (1 : Fin 3) j := by idx2
  have i2 : Value.ix13_2 (ix2 r j) = ix2 r j := by idx2
  have i3 : Value.ix13_3 (ix2 r j) = ix2 (1 : Fin 4) j := by idx2
  have i4 : Value.ix13_4 (ix2 r j) = ix2 r j := by idx2
  have i5 : Value.ix13_5 (ix2 r j) = ix2 r (colI j) := by idx2
  have i6 : Value.ix13_6 (ix2 r j) = ix2 (0 : Fin 3) j := by idx2
  have i7 : Value.ix13_7 (ix2 r j) = ix2 r j := by idx2
  have i8 : Value.ix13_8 (ix2 r j) = ix2 (0 : Fin 4) j := by idx2
  have i9 : Value.ix13_9 (ix2 r j) = ix2 r (colC j) := by idx2
  have i10 : Value.ix13_10 (ix2 r j) = ix2 (2 : Fin 4) j := by idx2
  simp only [Value.E13, i0, i1, i2, i3, i4, i5, i6, i7, i8, i9, i10, pay1_at]
  rfl

/-- The tile's new hidden state at `(r, j)` is node `r`'s `hnew j`: the output gate sits in columns 48–63, with row 2
    of the peephole weights against the new cell state and row 3 of the biases. -/
theorem hnew_tile (r : Fin 2000) (j : Fin 16) :
    Value.E12 (F := Ideal) P0 P1 P2 P3 P4 P5 P6 P7 P8 (ix2 r j)
      = hnew (row (R := 2000) (n := 8) P0 r) (row (R := 2000) (n := 16) P1 r) (row (R := 2000) (n := 16) P7 r)
          P2 P4 P3 P5 P6 P8 j := by
  have i0 : Value.ix12_0 (ix2 r j) = ix2 r (colO j) := by idx2
  have i1 : Value.ix12_1 (ix2 r j) = ix2 (2 : Fin 3) j := by idx2
  have i2 : Value.ix12_2 (ix2 r j) = ix2 r (colF j) := by idx2
  have i3 : Value.ix12_3 (ix2 r j) = ix2 (1 : Fin 3) j := by idx2
  have i4 : Value.ix12_4 (ix2 r j) = ix2 r j := by idx2
  have i5 : Value.ix12_5 (ix2 r j) = ix2 (1 : Fin 4) j := by idx2
  have i6 : Value.ix12_6 (ix2 r j) = ix2 r j := by idx2
  have i7 : Value.ix12_7 (ix2 r j) = ix2 r (colI j) := by idx2
  have i8 : Value.ix12_8 (ix2 r j) = ix2 (0 : Fin 3) j := by idx2
  have i9 : Value.ix12_9 (ix2 r j) = ix2 r j := by idx2
  have i10 : Value.ix12_10 (ix2 r j) = ix2 (0 : Fin 4) j := by idx2
  have i11 : Value.ix12_11 (ix2 r j) = ix2 r (colC j) := by idx2
  have i12 : Value.ix12_12 (ix2 r j) = ix2 (2 : Fin 4) j := by idx2
  have i13 : Value.ix12_13 (ix2 r j) = ix2 (3 : Fin 4) j := by idx2
  have i14 : Value.ix12_14 (ix2 r j) = ix2 r (colF j) := by idx2
  have i15 : Value.ix12_15 (ix2 r j) = ix2 (1 : Fin 3) j := by idx2
  have i16 : Value.ix12_16 (ix2 r j) = ix2 r j := by idx2
  have i17 : Value.ix12_17 (ix2 r j) = ix2 (1 : Fin 4) j := by idx2
  have i18 : Value.ix12_18 (ix2 r j) = ix2 r j := by idx2
  have i19 : Value.ix12_19 (ix2 r j) = ix2 r (colI j) := by idx2
  have i20 : Value.ix12_20 (ix2 r j) = ix2 (0 : Fin 3) j := by idx2
  have i21 : Value.ix12_21 (ix2 r j) = ix2 r j := by idx2
  have i22 : Value.ix12_22 (ix2 r j) = ix2 (0 : Fin 4) j := by idx2
  have i23 : Value.ix12_23 (ix2 r j) = ix2 r (colC j) := by idx2
  have i24 : Value.ix12_24 (ix2 r j) = ix2 (2 : Fin 4) j := by idx2
  simp only [Value.E12, i0, i1, i2, i3, i4, i5, i6, i7, i8, i9, i10, i11, i12, i13, i14, i15, i16, i17, i18, i19, i20,
    i21, i22, i23, i24, pay1_at]
  rfl

/-- What the body stores into the new-cell-state tile, at `(r, j)`. -/
theorem pay7_at (r : Fin 2000) (j : Fin 16) :
    k0_pay7 P7 (k0_pay2 P0 P1 P2 P3 P4 P5) (k0_pay3 P0 P1 P2 P3 P4 P5) P8 (k0_pay5 P0 P1 P7 P2 P3 P4 P5 P6 P8) (k0_pay6 P6) (ix2 r j)
      = cnew (row (R := 2000) (n := 8) P0 r) (row (R := 2000) (n := 16) P1 r) (row (R := 2000) (n := 16) P7 r)
          P2 P4 P3 P5 P6 P8 j :=
  (Value.piece13_0 (F := Ideal) P0 P1 P2 P3 P4 P5 P6 P7 P8 (ix2 r j)).trans
    ((congrArg (Value.E13 (F := Ideal) P0 P1 P2 P3 P4 P5 P6 P7 P8) (whole_idx (ix2 r j))).trans
      (cnew_tile P0 P1 P2 P3 P4 P5 P6 P7 P8 r j))

/-- What the body stores into the new-hidden-state tile, at `(r, j)`. -/
theorem pay8_at (r : Fin 2000) (j : Fin 16) :
    k0_pay8 P7 (k0_pay2 P0 P1 P2 P3 P4 P5) (k0_pay3 P0 P1 P2 P3 P4 P5) (k0_pay4 P0 P1 P2 P3 P4 P5) P6 P8
        (k0_pay5 P0 P1 P7 P2 P3 P4 P5 P6 P8) (k0_pay6 P6) (ix2 r j)
      = hnew (row (R := 2000) (n := 8) P0 r) (row (R := 2000) (n := 16) P1 r) (row (R := 2000) (n := 16) P7 r)
          P2 P4 P3 P5 P6 P8 j :=
  (Value.piece12_0 (F := Ideal) P0 P1 P2 P3 P4 P5 P6 P7 P8 (ix2 r j)).trans
    ((congrArg (Value.E12 (F := Ideal) P0 P1 P2 P3 P4 P5 P6 P7 P8) (whole_idx (ix2 r j))).trans
      (hnew_tile P0 P1 P2 P3 P4 P5 P6 P7 P8 r j))

/-- What the body stores into the read-out tile, at `(r, 0)`: the new hidden row clamped at zero against the read-out
    column (both narrowed to bf16, which changes nothing here), plus the read-out bias repeated down the rows. -/
theorem pay9_at (P9 : Vec Ideal S16x1 .f32) (P10 : Vec Ideal S1 .f32) (r : Fin 2000) (u : Fin 1) :
    k0_pay9 P7 (k0_pay2 P0 P1 P2 P3 P4 P5) (k0_pay3 P0 P1 P2 P3 P4 P5) (k0_pay4 P0 P1 P2 P3 P4 P5) P6 P8
        (k0_pay5 P0 P1 P7 P2 P3 P4 P5 P6 P8) (k0_pay6 P6) P9 P10 (ix2 r u)
      = out (row (R := 2000) (n := 8) P0 r) (row (R := 2000) (n := 16) P1 r) (row (R := 2000) (n := 16) P7 r)
          P2 P4 P3 P5 P6 P8 P9 P10 := by
  obtain rfl : u = 0 := Subsingleton.elim _ _
  unfold k0_pay9 out
  refine congrArg₂ (· + ·) ?_ ?_
  · refine (PlainMatmul.apply (d := dot_S2000x16_S16x1_S2000x1_1_0_0_1_n_n) ⟨rfl, rfl, rfl, rfl, rfl, rfl⟩ none _ _ r 0).trans ?_
    refine Finset.sum_congr rfl fun k _ => ?_
    refine congrArg₂ (· * ·) ?_ rfl
    refine congrArg₂ max (pay8_at P0 P1 P2 P3 P4 P5 P6 P7 P8 r k) ?_
    exact Ideal.ofBits_zero_f32
  · exact (broadcastTo_1b_ab_apply (shapeCast S1x1 P10 shapeCasts_S1_S1x1) broadcasts_S1x1_S2000x1 r 0).trans
      (shapeCast_a_1a_apply P10 shapeCasts_S1_S1x1 0 0)

/-! ## The three stored tiles as whole functions of the staged tiles -/

/-- The stored new-cell-state tile is the node-by-node `cnew` of the tile's 2000 nodes. -/
theorem cnew_stored (y : S2000x16.Idx) :
    k0_pay7 P7 (k0_pay2 P0 P1 P2 P3 P4 P5) (k0_pay3 P0 P1 P2 P3 P4 P5) P8 (k0_pay5 P0 P1 P7 P2 P3 P4 P5 P6 P8) (k0_pay6 P6) y
      = cnewAll (R := 2000) P0 P1 P7 P2 P4 P3 P5 P6 P8 y := by
  obtain ⟨r, j, rfl⟩ : ∃ (r : Fin 2000) (j : Fin 16), y = ix2 r j := ⟨y 0, y 1, eq_ix2 y⟩
  exact pay7_at P0 P1 P2 P3 P4 P5 P6 P7 P8 r j

/-- The stored new-hidden-state tile is the node-by-node `hnew` of the tile's 2000 nodes. -/
theorem hnew_stored (y : S2000x16.Idx) :
    k0_pay8 P7 (k0_pay2 P0 P1 P2 P3 P4 P5) (k0_pay3 P0 P1 P2 P3 P4 P5) (k0_pay4 P0 P1 P2 P3 P4 P5) P6 P8
        (k0_pay5 P0 P1 P7 P2 P3 P4 P5 P6 P8) (k0_pay6 P6) y
      = hnewAll (R := 2000) P0 P1 P7 P2 P4 P3 P5 P6 P8 y := by
  obtain ⟨r, j, rfl⟩ : ∃ (r : Fin 2000) (j : Fin 16), y = ix2 r j := ⟨y 0, y 1, eq_ix2 y⟩
  exact pay8_at P0 P1 P2 P3 P4 P5 P6 P7 P8 r j

/-- The stored read-out tile is the node-by-node `out` of the tile's 2000 nodes. -/
theorem out_stored (P9 : Vec Ideal S16x1 .f32) (P10 : Vec Ideal S1 .f32) (y : S2000x1.Idx) :
    k0_pay9 P7 (k0_pay2 P0 P1 P2 P3 P4 P5) (k0_pay3 P0 P1 P2 P3 P4 P5) (k0_pay4 P0 P1 P2 P3 P4 P5) P6 P8
        (k0_pay5 P0 P1 P7 P2 P3 P4 P5 P6 P8) (k0_pay6 P6) P9 P10 y
      = outAll (R := 2000) P0 P1 P7 P2 P4 P3 P5 P6 P8 P9 P10 y := by
  obtain ⟨r, u, rfl⟩ : ∃ (r : Fin 2000) (u : Fin 1), y = ix2 r u := ⟨y 0, y 1, eq_ix2 y⟩
  exact pay9_at P0 P1 P2 P3 P4 P5 P6 P7 P8 P9 P10 r u

end tile

end Cert.KernelIdeal.Block

end
-- ==== Proof.KernelArray.lean ====
/-
  From tiles to whole arrays: what the kernel's three result arrays hold after its run.

  The grid has 500 points. At point `t` the three per-node operands `x`, `h`, `c` and the three results are cut
  into tiles of 2000 consecutive nodes, tile `t` being nodes `2000 t … 2000 t + 1999`, all columns; the eight
  weight operands are staged whole at every point. So row `r` of a tile is node `2000 t + r`, what point `t` writes
  back is tile `t` of ONE function of the argument arrays — the cell's results node by node —, and the 500 tiles
  cover every node: node `p` lies in tile `p / 2000`.
-/
import proofs.«144452_j25890062860561_2_alg».proof.Proof.KernelBlock

noncomputable section

open scoped BigOperators
open Idealize.ShloMosaic Idealize.ShloMosaic.TcCoe Idealize.SL.Sem Idealize.ShloMosaic.ValueIdx PeepholeCell
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-! ## Where each window's tile sits, decided over the 500 points -/

/-- The per-node windows (operands 0, 1, 2 and the three results) take tile `t` of the nodes and all columns. -/
theorem node_tiles : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_11.index t (0 : Fin 2) = t.val ∧ win0_11.index t (1 : Fin 2) = 0
    ∧ win0_12.index t (0 : Fin 2) = t.val ∧ win0_12.index t (1 : Fin 2) = 0
    ∧ win0_13.index t (0 : Fin 2) = t.val ∧ win0_13.index t (1 : Fin 2) = 0 :=
  (by decide +kernel : ∀ t : Fin grid0.N, _)

/-- The weight windows (operands 3 … 10) take their whole array at every point. -/
theorem weight_tiles : ∀ t : Fin cfg0.N,
    win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 1) = 0 :=
  (by decide +kernel : ∀ t : Fin grid0.N, _)

theorem point_lt (t : Fin cfg0.N) : t.val < 500 := by
  have h : t.val < grid0.N := t.isLt
  rw [N_0] at h
  exact h

/-! ## The staged tiles, read off the argument arrays -/

/-- Row `r` of tile `t` of the node features is node `p = 2000 t + r`'s row. -/
theorem x_row (c : Dev nD) (t : Fin cfg0.N) (r : Fin 2000) (p : Fin 1000000) (hp : p.val = t.val * 2000 + r.val) :
    row (R := 2000) (n := 8) (iblk m c 0 t) r = row (R := 1000000) (n := 8) (V m c main_arg0) p := by
  funext k
  show V m c main_arg0 (((cfg0.win 0).blk t).view.emb (ix2 r k)) = V m c main_arg0 (ix2 p k)
  refine congrArg (V m c main_arg0) (funext fun a => Fin.ext ?_)
  obtain ⟨e0, e1, -⟩ := node_tiles t
  match a with
  | ⟨0, _⟩ => show win0_0.index t (0 : Fin 2) * 2000 + 1 * r.val = p.val; omega
  | ⟨1, _⟩ => show win0_0.index t (1 : Fin 2) * 8 + 1 * k.val = k.val; omega

/-- Row `r` of tile `t` of the hidden state is node `p = 2000 t + r`'s row. -/
theorem h_row (c : Dev nD) (t : Fin cfg0.N) (r : Fin 2000) (p : Fin 1000000) (hp : p.val = t.val * 2000 + r.val) :
    row (R := 2000) (n := 16) (iblk m c 1 t) r = row (R := 1000000) (n := 16) (V m c main_arg3) p := by
  funext k
  show V m c main_arg3 (((cfg0.win 1).blk t).view.emb (ix2 r k)) = V m c main_arg3 (ix2 p k)
  refine congrArg (V m c main_arg3) (funext fun a => Fin.ext ?_)
  obtain ⟨-, -, e0, e1, -⟩ := node_tiles t
  match a with
  | ⟨0, _⟩ => show win0_1.index t (0 : Fin 2) * 2000 + 1 * r.val = p.val; omega
  | ⟨1, _⟩ => show win0_1.index t (1 : Fin 2) * 16 + 1 * k.val = k.val; omega

/-- Row `r` of tile `t` of the cell state is node `p = 2000 t + r`'s row. -/
theorem c_row (c : Dev nD) (t : Fin cfg0.N) (r : Fin 2000) (p : Fin 1000000) (hp : p.val = t.val * 2000 + r.val) :
    row (R := 2000) (n := 16) (iblk m c 2 t) r = row (R := 1000000) (n := 16) (V m c main_arg4) p := by
  funext k
  show V m c main_arg4 (((cfg0.win 2).blk t).view.emb (ix2 r k)) = V m c main_arg4 (ix2 p k)
  refine congrArg (V m c main_arg4) (funext fun a => Fin.ext ?_)
  obtain ⟨-, -, -, -, e0, e1, -⟩ := node_tiles t
  match a with
  | ⟨0, _⟩ => show win0_2.index t (0 : Fin 2) * 2000 + 1 * r.val = p.val; omega
  | ⟨1, _⟩ => show win0_2.index t (1 : Fin 2) * 16 + 1 * k.val = k.val; omega

/-- The staged weights are the weight arrays themselves. -/
theorem Wx_whole (c : Dev nD) (t : Fin cfg0.N) : (iblk m c 3 t : Mat 8 64) = V m c main_arg5 := by
  funext y
  show V m c main_arg5 (((cfg0.win 3).blk t).view.emb y) = V m c main_arg5 y
  refine congrArg (V m c main_arg5) (funext fun a => Fin.ext ?_)
  obtain ⟨e0, e1, -⟩ := weight_tiles t
  match a with
  | ⟨0, _⟩ => show win0_3.index t (0 : Fin 2) * 8 + 1 * (y 0).val = (y 0).val; omega
  | ⟨1, _⟩ => show win0_3.index t (1 : Fin 2) * 64 + 1 * (y 1).val = (y 1).val; omega

theorem bx_whole (c : Dev nD) (t : Fin cfg0.N) : (iblk m c 4 t : Vct 64) = V m c main_arg6 := by
  funext y
  show V m c main_arg6 (((cfg0.win 4).blk t).view.emb y) = V m c main_arg6 y
  refine congrArg (V m c main_arg6) (funext fun a => Fin.ext ?_)
  obtain ⟨-, -, e0, -⟩ := weight_tiles t
  match a with
  | ⟨0, _⟩ => show win0_4.index t (0 : Fin 1) * 64 + 1 * (y 0).val = (y 0).val; omega

theorem Wh_whole (c : Dev nD) (t : Fin cfg0.N) : (iblk m c 5 t : Mat 16 64) = V m c main_arg7 := by
  funext y
  show V m c main_arg7 (((cfg0.win 5).blk t).view.emb y) = V m c main_arg7 y
  refine congrArg (V m c main_arg7) (funext fun a => Fin.ext ?_)
  obtain ⟨-, -, -, e0, e1, -⟩ := weight_tiles t
  match a with
  | ⟨0, _⟩ => show win0_5.index t (0 : Fin 2) * 16 + 1 * (y 0).val = (y 0).val; omega
  | ⟨1, _⟩ => show win0_5.index t (1 : Fin 2) * 64 + 1 * (y 1).val = (y 1).val; omega

theorem bh_whole (c : Dev nD) (t : Fin cfg0.N) : (iblk m c 6 t : Vct 64) = V m c main_arg8 := by
  funext y
  show V m c main_arg8 (((cfg0.win 6).blk t).view.emb y) = V m c main_arg8 y
  refine congrArg (V m c main_arg8) (funext fun a => Fin.ext ?_)
  obtain ⟨-, -, -, -, -, e0, -⟩ := weight_tiles t
  match a with
  | ⟨0, _⟩ => show win0_6.index t (0 : Fin 1) * 64 + 1 * (y 0).val = (y 0).val; omega

theorem wp_whole (c : Dev nD) (t : Fin cfg0.N) : (iblk m c 7 t : Mat 3 16) = V m c main_arg9 := by
  funext y
  show V m c main_arg9 (((cfg0.win 7).blk t).view.emb y) = V m c main_arg9 y
  refine congrArg (V m c main_arg9) (funext fun a => Fin.ext ?_)
  obtain ⟨-, -, -, -, -, -, e0, e1, -⟩ := weight_tiles t
  match a with
  | ⟨0, _⟩ => show win0_7.index t (0 : Fin 2) * 3 + 1 * (y 0).val = (y 0).val; omega
  | ⟨1, _⟩ => show win0_7.index t (1 : Fin 2) * 16 + 1 * (y 1).val = (y 1).val; omega

theorem bg_whole (c : Dev nD) (t : Fin cfg0.N) : (iblk m c 8 t : Mat 4 16) = V m c main_arg10 := by
  funext y
  show V m c main_arg10 (((cfg0.win 8).blk t).view.emb y) = V m c main_arg10 y
  refine congrArg (V m c main_arg10) (funext fun a => Fin.ext ?_)
  obtain ⟨-, -, -, -, -, -, -, -, e0, e1, -⟩ := weight_tiles t
  match a with
  | ⟨0, _⟩ => show win0_8.index t (0 : Fin 2) * 4 + 1 * (y 0).val = (y 0).val; omega
  | ⟨1, _⟩ => show win0_8.index t (1 : Fin 2) * 16 + 1 * (y 1).val = (y 1).val; omega

theorem Wl_whole (c : Dev nD) (t : Fin cfg0.N) : (iblk m c 9 t : Mat 16 1) = V m c main_arg11 := by
  funext y
  show V m c main_arg11 (((cfg0.win 9).blk t).view.emb y) = V m c main_arg11 y
  refine congrArg (V m c main_arg11) (funext fun a => Fin.ext ?_)
  obtain ⟨-, -, -, -, -, -, -, -, -, -, e0, e1, -⟩ := weight_tiles t
  match a with
  | ⟨0, _⟩ => show win0_9.index t (0 : Fin 2) * 16 + 1 * (y 0).val = (y 0).val; omega
  | ⟨1, _⟩ => show win0_9.index t (1 : Fin 2) * 1 + 1 * (y 1).val = (y 1).val; omega

theorem bl_whole (c : Dev nD) (t : Fin cfg0.N) : (iblk m c 10 t : Vct 1) = V m c main_arg12 := by
  funext y
  show V m c main_arg12 (((cfg0.win 10).blk t).view.emb y) = V m c main_arg12 y
  refine congrArg (V m c main_arg12) (funext fun a => Fin.ext ?_)
  obtain ⟨-, -, -, -, -, -, -, -, -, -, -, -, e0⟩ := weight_tiles t
  match a with
  | ⟨0, _⟩ => show win0_10.index t (0 : Fin 1) * 1 + 1 * (y 0).val = (y 0).val; omega

/-! ## What a point writes back is its tile of the node-by-node results -/

/-- The new cell state of all nodes, from the argument arrays as the region finds them. -/
abbrev cnewOf (c : Dev nD) : Mat 1000000 16 :=
  cnewAll (R := 1000000) (V m c main_arg0) (V m c main_arg3) (V m c main_arg4) (V m c main_arg5) (V m c main_arg6)
    (V m c main_arg7) (V m c main_arg8) (V m c main_arg9) (V m c main_arg10)

/-- The new hidden state of all nodes. -/
abbrev hnewOf (c : Dev nD) : Mat 1000000 16 :=
  hnewAll (R := 1000000) (V m c main_arg0) (V m c main_arg3) (V m c main_arg4) (V m c main_arg5) (V m c main_arg6)
    (V m c main_arg7) (V m c main_arg8) (V m c main_arg9) (V m c main_arg10)

/-- The read-out of all nodes. -/
abbrev outOf (c : Dev nD) : Mat 1000000 1 :=
  outAll (R := 1000000) (V m c main_arg0) (V m c main_arg3) (V m c main_arg4) (V m c main_arg5) (V m c main_arg6)
    (V m c main_arg7) (V m c main_arg8) (V m c main_arg9) (V m c main_arg10) (V m c main_arg11) (V m c main_arg12)

theorem flushed13_eq (c : Dev nD) (t : Fin cfg0.N) :
    (dats m 0 c).flushed 13 t = ((cfg0.win 13).blk t).view.read (Elt Ideal) (cnewOf m c) := by
  rw [Value.flushed13]
  unfold out0_13
  rw [View.canon_unit_zero hz2]
  simp only [View.ld_unit_zero (S := S2000x8) hz2, View.ld_unit_zero (S := S2000x16) hz2,
    View.ld_unit_zero (S := S8x64) hz2, View.ld_unit_zero (S := S16x64) hz2, View.ld_unit_zero (S := S64) hz1,
    View.ld_unit_zero (S := S3x16) hz2, View.ld_unit_zero (S := S4x16) hz2]
  funext y
  obtain ⟨-, -, -, -, -, -, -, -, -, -, e0, e1⟩ := node_tiles t
  refine (Block.cnew_stored (iblk m c 0 t) (iblk m c 1 t) (iblk m c 3 t) (iblk m c 5 t) (iblk m c 4 t) (iblk m c 6 t)
    (iblk m c 7 t) (iblk m c 2 t) (iblk m c 8 t) y).trans ?_
  exact cnewAll_alike (R := 2000) (R' := 1000000) (iblk m c 0 t) (iblk m c 1 t) (iblk m c 2 t)
    (V m c main_arg0) (V m c main_arg3) (V m c main_arg4) (iblk m c 3 t) (V m c main_arg5) (iblk m c 4 t) (V m c main_arg6)
    (iblk m c 5 t) (V m c main_arg7) (iblk m c 6 t) (V m c main_arg8) (iblk m c 7 t) (V m c main_arg9)
    (iblk m c 8 t) (V m c main_arg10) y (((cfg0.win 13).blk t).view.emb y)
    (x_row m c t _ _ (by show win0_13.index t (0 : Fin 2) * 2000 + 1 * (y 0).val = t.val * 2000 + (y 0).val; omega))
    (h_row m c t _ _ (by show win0_13.index t (0 : Fin 2) * 2000 + 1 * (y 0).val = t.val * 2000 + (y 0).val; omega))
    (c_row m c t _ _ (by show win0_13.index t (0 : Fin 2) * 2000 + 1 * (y 0).val = t.val * 2000 + (y 0).val; omega))
    (Wx_whole m c t) (bx_whole m c t) (Wh_whole m c t) (bh_whole m c t) (wp_whole m c t) (bg_whole m c t)
    (Fin.ext (by show (y 1).val = win0_13.index t (1 : Fin 2) * 16 + 1 * (y 1).val; omega))

theorem flushed12_eq (c : Dev nD) (t : Fin cfg0.N) :
    (dats m 0 c).flushed 12 t = ((cfg0.win 12).blk t).view.read (Elt Ideal) (hnewOf m c) := by
  rw [Value.flushed12]
  unfold out0_12
  rw [View.canon_unit_zero hz2]
  simp only [View.ld_unit_zero (S := S2000x8) hz2, View.ld_unit_zero (S := S2000x16) hz2,
    View.ld_unit_zero (S := S8x64) hz2, View.ld_unit_zero (S := S16x64) hz2, View.ld_unit_zero (S := S64) hz1,
    View.ld_unit_zero (S := S3x16) hz2, View.ld_unit_zero (S := S4x16) hz2]
  funext y
  obtain ⟨-, -, -, -, -, -, -, -, e0, e1, -⟩ := node_tiles t
  refine (Block.hnew_stored (iblk m c 0 t) (iblk m c 1 t) (iblk m c 3 t) (iblk m c 5 t) (iblk m c 4 t) (iblk m c 6 t)
    (iblk m c 7 t) (iblk m c 2 t) (iblk m c 8 t) y).trans ?_
  exact hnewAll_alike (R := 2000) (R' := 1000000) (iblk m c 0 t) (iblk m c 1 t) (iblk m c 2 t)
    (V m c main_arg0) (V m c main_arg3) (V m c main_arg4) (iblk m c 3 t) (V m c main_arg5) (iblk m c 4 t) (V m c main_arg6)
    (iblk m c 5 t) (V m c main_arg7) (iblk m c 6 t) (V m c main_arg8) (iblk m c 7 t) (V m c main_arg9)
    (iblk m c 8 t) (V m c main_arg10) y (((cfg0.win 12).blk t).view.emb y)
    (x_row m c t _ _ (by show win0_12.index t (0 : Fin 2) * 2000 + 1 * (y 0).val = t.val * 2000 + (y 0).val; omega))
    (h_row m c t _ _ (by show win0_12.index t (0 : Fin 2) * 2000 + 1 * (y 0).val = t.val * 2000 + (y 0).val; omega))
    (c_row m c t _ _ (by show win0_12.index t (0 : Fin 2) * 2000 + 1 * (y 0).val = t.val * 2000 + (y 0).val; omega))
    (Wx_whole m c t) (bx_whole m c t) (Wh_whole m c t) (bh_whole m c t) (wp_whole m c t) (bg_whole m c t)
    (Fin.ext (by show (y 1).val = win0_12.index t (1 : Fin 2) * 16 + 1 * (y 1).val; omega))

theorem flushed11_eq (c : Dev nD) (t : Fin cfg0.N) :
    (dats m 0 c).flushed 11 t = ((cfg0.win 11).blk t).view.read (Elt Ideal) (outOf m c) := by
  rw [Value.flushed11]
  unfold out0_11
  rw [View.canon_unit_zero hz2]
  simp only [View.ld_unit_zero (S := S2000x8) hz2, View.ld_unit_zero (S := S2000x16) hz2,
    View.ld_unit_zero (S := S8x64) hz2, View.ld_unit_zero (S := S16x64) hz2, View.ld_unit_zero (S := S64) hz1,
    View.ld_unit_zero (S := S3x16) hz2, View.ld_unit_zero (S := S4x16) hz2, View.ld_unit_zero (S := S16x1) hz2,
    View.ld_unit_zero (S := S1) hz1]
  funext y
  obtain ⟨-, -, -, -, -, -, e0, e1, -⟩ := node_tiles t
  refine (Block.out_stored (iblk m c 0 t) (iblk m c 1 t) (iblk m c 3 t) (iblk m c 5 t) (iblk m c 4 t) (iblk m c 6 t)
    (iblk m c 7 t) (iblk m c 2 t) (iblk m c 8 t) (iblk m c 9 t) (iblk m c 10 t) y).trans ?_
  exact outAll_alike (R := 2000) (R' := 1000000) (iblk m c 0 t) (iblk m c 1 t) (iblk m c 2 t)
    (V m c main_arg0) (V m c main_arg3) (V m c main_arg4) (iblk m c 3 t) (V m c main_arg5) (iblk m c 4 t) (V m c main_arg6)
    (iblk m c 5 t) (V m c main_arg7) (iblk m c 6 t) (V m c main_arg8) (iblk m c 7 t) (V m c main_arg9)
    (iblk m c 8 t) (V m c main_arg10) (iblk m c 9 t) (V m c main_arg11) (iblk m c 10 t) (V m c main_arg12)
    y (((cfg0.win 11).blk t).view.emb y)
    (x_row m c t _ _ (by show win0_11.index t (0 : Fin 2) * 2000 + 1 * (y 0).val = t.val * 2000 + (y 0).val; omega))
    (h_row m c t _ _ (by show win0_11.index t (0 : Fin 2) * 2000 + 1 * (y 0).val = t.val * 2000 + (y 0).val; omega))
    (c_row m c t _ _ (by show win0_11.index t (0 : Fin 2) * 2000 + 1 * (y 0).val = t.val * 2000 + (y 0).val; omega))
    (Wx_whole m c t) (bx_whole m c t) (Wh_whole m c t) (bh_whole m c t) (wp_whole m c t) (bg_whole m c t)
    (Wl_whole m c t) (bl_whole m c t)

/-! ## The 500 tiles cover every node -/

/-- An index of a result array is in point `t`'s tile iff each coordinate is in the tile's range on its axis. -/
theorem mem_blk13 (t : Fin cfg0.N) (i : S1000000x16.Idx) :
    i ∈ ((cfg0.win 13).blk t).view.set ↔ ∀ a : Fin 2, win0_13.index t a * S2000x16.size a ≤ (i a).val
      ∧ (i a).val < win0_13.index t a * S2000x16.size a + S2000x16.size a := by
  show i ∈ ((View.whole main_v0_2).slice (win0_13.rect t)).set ↔ _
  rw [View.set_slice_whole, Rect.mem_set_unit]
  exact Iff.rfl

theorem mem_blk12 (t : Fin cfg0.N) (i : S1000000x16.Idx) :
    i ∈ ((cfg0.win 12).blk t).view.set ↔ ∀ a : Fin 2, win0_12.index t a * S2000x16.size a ≤ (i a).val
      ∧ (i a).val < win0_12.index t a * S2000x16.size a + S2000x16.size a := by
  show i ∈ ((View.whole main_v0_1).slice (win0_12.rect t)).set ↔ _
  rw [View.set_slice_whole, Rect.mem_set_unit]
  exact Iff.rfl

theorem mem_blk11 (t : Fin cfg0.N) (i : S1000000x1.Idx) :
    i ∈ ((cfg0.win 11).blk t).view.set ↔ ∀ a : Fin 2, win0_11.index t a * S2000x1.size a ≤ (i a).val
      ∧ (i a).val < win0_11.index t a * S2000x1.size a + S2000x1.size a := by
  show i ∈ ((View.whole main_v0_0).slice (win0_11.rect t)).set ↔ _
  rw [View.set_slice_whole, Rect.mem_set_unit]
  exact Iff.rfl

/-- Node `p` is below 500 tiles of 2000. -/
theorem tile_lt (p : Nat) (hp : p < 1000000) : p / 2000 < cfg0.N := by
  show p / 2000 < grid0.N
  rw [N_0]
  omega

theorem cover13 (i : S1000000x16.Idx) :
    ∃ t : Fin cfg0.N, (cfg0.win 13).flush t = true ∧ i ∈ ((cfg0.win 13).blk t).view.set := by
  have h0 : (i 0).val < 1000000 := (i 0).isLt
  have h1 : (i 1).val < 16 := (i 1).isLt
  refine ⟨⟨(i 0).val / 2000, tile_lt _ h0⟩, flush0_13 _, ?_⟩
  obtain ⟨-, -, -, -, -, -, -, -, -, -, e0, e1⟩ := node_tiles ⟨(i 0).val / 2000, tile_lt _ h0⟩
  have e0' : win0_13.index ⟨(i 0).val / 2000, tile_lt _ h0⟩ (0 : Fin 2) = (i 0).val / 2000 := e0
  rw [mem_blk13]
  intro a
  match a with
  | ⟨0, _⟩ =>
    show win0_13.index ⟨(i 0).val / 2000, tile_lt _ h0⟩ (0 : Fin 2) * 2000 ≤ (i 0).val
      ∧ (i 0).val < win0_13.index ⟨(i 0).val / 2000, tile_lt _ h0⟩ (0 : Fin 2) * 2000 + 2000
    omega
  | ⟨1, _⟩ =>
    show win0_13.index ⟨(i 0).val / 2000, tile_lt _ h0⟩ (1 : Fin 2) * 16 ≤ (i 1).val
      ∧ (i 1).val < win0_13.index ⟨(i 0).val / 2000, tile_lt _ h0⟩ (1 : Fin 2) * 16 + 16
    omega

theorem cover12 (i : S1000000x16.Idx) :
    ∃ t : Fin cfg0.N, (cfg0.win 12).flush t = true ∧ i ∈ ((cfg0.win 12).blk t).view.set := by
  have h0 : (i 0).val < 1000000 := (i 0).isLt
  have h1 : (i 1).val < 16 := (i 1).isLt
  refine ⟨⟨(i 0).val / 2000, tile_lt _ h0⟩, flush0_12 _, ?_⟩
  obtain ⟨-, -, -, -, -, -, -, -, e0, e1, -⟩ := node_tiles ⟨(i 0).val / 2000, tile_lt _ h0⟩
  have e0' : win0_12.index ⟨(i 0).val / 2000, tile_lt _ h0⟩ (0 : Fin 2) = (i 0).val / 2000 := e0
  rw [mem_blk12]
  intro a
  match a with
  | ⟨0, _⟩ =>
    show win0_12.index ⟨(i 0).val / 2000, tile_lt _ h0⟩ (0 : Fin 2) * 2000 ≤ (i 0).val
      ∧ (i 0).val < win0_12.index ⟨(i 0).val / 2000, tile_lt _ h0⟩ (0 : Fin 2) * 2000 + 2000
    omega
  | ⟨1, _⟩ =>
    show win0_12.index ⟨(i 0).val / 2000, tile_lt _ h0⟩ (1 : Fin 2) * 16 ≤ (i 1).val
      ∧ (i 1).val < win0_12.index ⟨(i 0).val / 2000, tile_lt _ h0⟩ (1 : Fin 2) * 16 + 16
    omega

theorem cover11 (i : S1000000x1.Idx) :
    ∃ t : Fin cfg0.N, (cfg0.win 11).flush t = true ∧ i ∈ ((cfg0.win 11).blk t).view.set := by
  have h0 : (i 0).val < 1000000 := (i 0).isLt
  have h1 : (i 1).val < 1 := (i 1).isLt
  refine ⟨⟨(i 0).val / 2000, tile_lt _ h0⟩, flush0_11 _, ?_⟩
  obtain ⟨-, -, -, -, -, -, e0, e1, -⟩ := node_tiles ⟨(i 0).val / 2000, tile_lt _ h0⟩
  have e0' : win0_11.index ⟨(i 0).val / 2000, tile_lt _ h0⟩ (0 : Fin 2) = (i 0).val / 2000 := e0
  rw [mem_blk11]
  intro a
  match a with
  | ⟨0, _⟩ =>
    show win0_11.index ⟨(i 0).val / 2000, tile_lt _ h0⟩ (0 : Fin 2) * 2000 ≤ (i 0).val
      ∧ (i 0).val < win0_11.index ⟨(i 0).val / 2000, tile_lt _ h0⟩ (0 : Fin 2) * 2000 + 2000
    omega
  | ⟨1, _⟩ =>
    show win0_11.index ⟨(i 0).val / 2000, tile_lt _ h0⟩ (1 : Fin 2) * 1 ≤ (i 1).val
      ∧ (i 1).val < win0_11.index ⟨(i 0).val / 2000, tile_lt _ h0⟩ (1 : Fin 2) * 1 + 1
    omega

/-! ## The result arrays after the run -/

theorem final13 (c : Dev nD) : (dats m 0 c).arrAt 13 cfg0.N = cnewOf m c :=
  (dats m 0 c).arrAt_eq_of_cover 13 (cnewOf m c) (fun t _ => flushed13_eq m c t) cover13

theorem final12 (c : Dev nD) : (dats m 0 c).arrAt 12 cfg0.N = hnewOf m c :=
  (dats m 0 c).arrAt_eq_of_cover 12 (hnewOf m c) (fun t _ => flushed12_eq m c t) cover12

theorem final11 (c : Dev nD) : (dats m 0 c).arrAt 11 cfg0.N = outOf m c :=
  (dats m 0 c).arrAt_eq_of_cover 11 (outOf m c) (fun t _ => flushed11_eq m c t) cover11

/-- Every weakly fair execution of the kernel's program terminates with the read-out, the new hidden state and the
    new cell state of all nodes in its three result arrays, and its arguments unchanged. -/
theorem run : θ_run defs (onTc (τ := τ) (main (F := Ideal))) ⟨m, fun _ => 0, ρ⟩ fun r => ∀ c : Dev nD,
      r.2.mem ((c : Thread nD τ).loc main_v0_0) = outOf m c
      ∧ r.2.mem ((c : Thread nD τ).loc main_v0_1) = hnewOf m c
      ∧ r.2.mem ((c : Thread nD τ).loc main_v0_2) = cnewOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final11 m c), (h c).2.1.trans (final12 m c),
      (h c).2.2.1.trans (final13 m c), (h c).2.2.2⟩)
    (Value.run_blocks m ρ)

end Cert.KernelIdeal.Whole

end
-- ==== Proof.RefCell.lean ====
/-
  The reference program's three results, read entry by entry over the extended reals.

  The reference computes the gate pre-activations of all 1,000,000 nodes at once, each bias added to its own
  product first; it cuts the four gates out by column ranges, takes row `g` of the peephole weights and of the gate
  biases for every node, and spells the logistic function out as `1 / (1 + exp (-z))`, which over the extended
  reals is the logistic function itself. So entry `(p, j)` of its new cell state, of its new hidden state, and entry
  `(p, 0)` of its read-out are `PeepholeCell.cnew`, `hnew`, `out` of node `p`'s three rows.
-/
import proofs.«144452_j25890062860561_2_alg».proof.Proof.Gen.ReferenceIdeal.Read
import proofs.«144452_j25890062860561_2_alg».proof.Proof.Cell
import Idealize.ShloMosaic.Lib.IdealHost

noncomputable section

open scoped BigOperators
open Idealize.ShloMosaic Idealize.ShloMosaic.ValueIdx PeepholeCell

namespace Cert.ReferenceIdeal.RefCell

open Cert.ReferenceIdeal Cert.ReferenceIdeal.Read

variable (x0 : Mat 1000000 8) (x3 x4 : Mat 1000000 16) (x5 : Mat 8 64) (x6 : Vct 64) (x7 : Mat 16 64) (x8 : Vct 64)
variable (x9 : Mat 3 16) (x10 : Mat 4 16) (x11 : Mat 16 1) (x12 : Vct 1)

/-- The written-out logistic function is the logistic function. -/
theorem logistic_spelt (z : EReal) :
    Ideal.div (Ideal.ofBits .f32 0x3F800000#32) (Ideal.ofBits .f32 0x3F800000#32 + Ideal.exp (-z)) = Ideal.logistic z := by
  rw [Ideal.ofBits_one_f32]; rfl

/-! ## The gate pre-activations -/

/-- Entry `(p, q)` of the reference's pre-activation matrix is column `q` of node `p`'s pre-activations. -/
theorem pre_at (p : Fin 1000000) (q : Fin 64) :
    val_main_v8 (F := Ideal) x0 x3 x5 x6 x7 x8 (ix2 p q)
      = pre (row (R := 1000000) (n := 8) x0 p) (row (R := 1000000) (n := 16) x3 p) x5 x6 x7 x8 q := by
  rw [pre_eq_biased, val_main_v8_apply, val_main_v3_apply, val_main_v7_apply, val_main_v0_apply, val_main_v4_apply,
    val_main_v2_apply, val_main_v1_apply, val_main_v6_apply, val_main_v5_apply]
  have l0 : ∀ k : Fin 8, lidx_main_v0 (ix2 p q) k = ix2 p k := fun k =>
    funext fun a => Fin.ext (by match a with | ⟨0, _⟩ => rfl | ⟨1, _⟩ => rfl)
  have r0 : ∀ k : Fin 8, ridx_main_v0 (ix2 p q) k = ix2 k q := fun k =>
    funext fun a => Fin.ext (by match a with | ⟨0, _⟩ => rfl | ⟨1, _⟩ => rfl)
  have l4 : ∀ k : Fin 16, lidx_main_v4 (ix2 p q) k = ix2 p k := fun k =>
    funext fun a => Fin.ext (by match a with | ⟨0, _⟩ => rfl | ⟨1, _⟩ => rfl)
  have r4 : ∀ k : Fin 16, ridx_main_v4 (ix2 p q) k = ix2 k q := fun k =>
    funext fun a => Fin.ext (by match a with | ⟨0, _⟩ => rfl | ⟨1, _⟩ => rfl)
  have b1 : idx_main_v1 (idx_main_v2 (ix2 p q)) = ix1 q :=
    funext fun a => Fin.ext (by match a with | ⟨0, _⟩ => rfl)
  have b5 : idx_main_v5 (idx_main_v6 (ix2 p q)) = ix1 q :=
    funext fun a => Fin.ext (by match a with | ⟨0, _⟩ => rfl)
  simp only [l0, r0, l4, r4, b1, b5]
  rfl

/-! ## One row of the peephole weights, or of the gate biases, for every node

Row `g` is cut out as a 1×16 matrix, flattened to 16 entries, made a row again and repeated down the 1,000,000
nodes: at `(p, j)` that reads entry `(g, j)`. -/

/-- The proof that two indices of a matrix are equal when flattening has left `j % 16` for `j < 16`. -/
local macro "row_idx" j:term : tactic =>
  `(tactic| exact funext fun a => Fin.ext (by
      match a with
      | ⟨0, _⟩ => rfl
      | ⟨1, _⟩ => exact Nat.mod_eq_of_lt (Fin.isLt $j)))

theorem wp0_at (p : Fin 1000000) (j : Fin 16) : val_main_v16 (F := Ideal) x9 (ix2 p j) = x9 (ix2 (0 : Fin 3) j) := by
  rw [val_main_v16_apply, val_main_v15_apply, val_main_v14_apply, val_main_v13_apply]
  refine congrArg x9 ?_
  row_idx j

theorem bg0_at (p : Fin 1000000) (j : Fin 16) : val_main_v22 (F := Ideal) x10 (ix2 p j) = x10 (ix2 (0 : Fin 4) j) := by
  rw [val_main_v22_apply, val_main_v21_apply, val_main_v20_apply, val_main_v19_apply]
  refine congrArg x10 ?_
  row_idx j

theorem wp1_at (p : Fin 1000000) (j : Fin 16) : val_main_v33 (F := Ideal) x9 (ix2 p j) = x9 (ix2 (1 : Fin 3) j) := by
  rw [val_main_v33_apply, val_main_v32_apply, val_main_v31_apply, val_main_v30_apply]
  refine congrArg x9 ?_
  row_idx j

theorem bg1_at (p : Fin 1000000) (j : Fin 16) : val_main_v39 (F := Ideal) x10 (ix2 p j) = x10 (ix2 (1 : Fin 4) j) := by
  rw [val_main_v39_apply, val_main_v38_apply, val_main_v37_apply, val_main_v36_apply]
  refine congrArg x10 ?_
  row_idx j

theorem bg2_at (p : Fin 1000000) (j : Fin 16) : val_main_v50 (F := Ideal) x10 (ix2 p j) = x10 (ix2 (2 : Fin 4) j) := by
  rw [val_main_v50_apply, val_main_v49_apply, val_main_v48_apply, val_main_v47_apply]
  refine congrArg x10 ?_
  row_idx j

theorem wp2_at (p : Fin 1000000) (j : Fin 16) : val_main_v59 (F := Ideal) x9 (ix2 p j) = x9 (ix2 (2 : Fin 3) j) := by
  rw [val_main_v59_apply, val_main_v58_apply, val_main_v57_apply, val_main_v56_apply]
  refine congrArg x9 ?_
  row_idx j

theorem bg3_at (p : Fin 1000000) (j : Fin 16) : val_main_v65 (F := Ideal) x10 (ix2 p j) = x10 (ix2 (3 : Fin 4) j) := by
  rw [val_main_v65_apply, val_main_v64_apply, val_main_v63_apply, val_main_v62_apply]
  refine congrArg x10 ?_
  row_idx j

/-! ## The gates -/

/-- The input gate of node `p`, entry `j`: columns 0–15 of the pre-activations. -/
theorem gate_i_at (p : Fin 1000000) (j : Fin 16) :
    val_main_v29 (F := Ideal) x0 x3 x4 x5 x6 x7 x8 x9 x10 (ix2 p j)
      = Ideal.logistic (pre (row (R := 1000000) (n := 8) x0 p) (row (R := 1000000) (n := 16) x3 p) x5 x6 x7 x8 (colI j)
          + x9 (ix2 0 j) * x4 (ix2 p j) + x10 (ix2 0 j)) := by
  have e : idx_main_v9 (ix2 p j) = ix2 p (colI j) :=
    funext fun a => Fin.ext (by match a with | ⟨0, _⟩ => rfl | ⟨1, _⟩ => rfl)
  rw [val_main_v29_apply, val_main_v28_apply, val_main_cst_0_apply, val_main_v27_apply, val_main_v26_apply,
    val_main_cst_apply, val_main_v25_apply, val_main_v24_apply, val_main_v23_apply, val_main_v18_apply,
    val_main_v9_apply, val_main_v17_apply, wp0_at, bg0_at, e, pre_at]
  exact logistic_spelt _

/-- The forget gate: columns 16–31. -/
theorem gate_f_at (p : Fin 1000000) (j : Fin 16) :
    val_main_v46 (F := Ideal) x0 x3 x4 x5 x6 x7 x8 x9 x10 (ix2 p j)
      = Ideal.logistic (pre (row (R := 1000000) (n := 8) x0 p) (row (R := 1000000) (n := 16) x3 p) x5 x6 x7 x8 (colF j)
          + x9 (ix2 1 j) * x4 (ix2 p j) + x10 (ix2 1 j)) := by
  have e : idx_main_v10 (ix2 p j) = ix2 p (colF j) :=
    funext fun a => Fin.ext (by match a with | ⟨0, _⟩ => rfl | ⟨1, _⟩ => exact Nat.add_comm 16 j.val)
  rw [val_main_v46_apply, val_main_v45_apply, val_main_cst_2_apply, val_main_v44_apply, val_main_v43_apply,
    val_main_cst_1_apply, val_main_v42_apply, val_main_v41_apply, val_main_v40_apply, val_main_v35_apply,
    val_main_v10_apply, val_main_v34_apply, wp1_at, bg1_at, e, pre_at]
  exact logistic_spelt _

/-- The candidate: columns 32–47, no peephole term. -/
theorem cand_at (p : Fin 1000000) (j : Fin 16) :
    val_main_v52 (F := Ideal) x0 x3 x5 x6 x7 x8 x10 (ix2 p j)
      = Ideal.tanh (pre (row (R := 1000000) (n := 8) x0 p) (row (R := 1000000) (n := 16) x3 p) x5 x6 x7 x8 (colC j)
          + x10 (ix2 2 j)) := by
  have e : idx_main_v11 (ix2 p j) = ix2 p (colC j) :=
    funext fun a => Fin.ext (by match a with | ⟨0, _⟩ => rfl | ⟨1, _⟩ => exact Nat.add_comm 32 j.val)
  rw [val_main_v52_apply, val_main_v51_apply, val_main_v11_apply, bg2_at, e, pre_at]
  rfl

/-! ## The three results -/

/-- Entry `(p, j)` of the reference's new cell state. -/
theorem cnew_at (p : Fin 1000000) (j : Fin 16) :
    val_main_v55 (F := Ideal) x0 x3 x4 x5 x6 x7 x8 x9 x10 (ix2 p j)
      = cnew (row (R := 1000000) (n := 8) x0 p) (row (R := 1000000) (n := 16) x3 p) (row (R := 1000000) (n := 16) x4 p)
          x5 x6 x7 x8 x9 x10 j := by
  rw [val_main_v55_apply, val_main_v53_apply, val_main_v54_apply, gate_f_at, gate_i_at, cand_at]
  rfl

/-- Entry `(p, j)` of the reference's new hidden state: the output gate reads columns 48–63 and the new cell state. -/
theorem hnew_at (p : Fin 1000000) (j : Fin 16) :
    val_main_v74 (F := Ideal) x0 x3 x4 x5 x6 x7 x8 x9 x10 (ix2 p j)
      = hnew (row (R := 1000000) (n := 8) x0 p) (row (R := 1000000) (n := 16) x3 p) (row (R := 1000000) (n := 16) x4 p)
          x5 x6 x7 x8 x9 x10 j := by
  have e : idx_main_v12 (ix2 p j) = ix2 p (colO j) :=
    funext fun a => Fin.ext (by match a with | ⟨0, _⟩ => rfl | ⟨1, _⟩ => exact Nat.add_comm 48 j.val)
  have g : val_main_v72 (F := Ideal) x0 x3 x4 x5 x6 x7 x8 x9 x10 (ix2 p j)
      = Ideal.logistic (pre (row (R := 1000000) (n := 8) x0 p) (row (R := 1000000) (n := 16) x3 p) x5 x6 x7 x8 (colO j)
          + x9 (ix2 2 j) * cnew (row (R := 1000000) (n := 8) x0 p) (row (R := 1000000) (n := 16) x3 p)
              (row (R := 1000000) (n := 16) x4 p) x5 x6 x7 x8 x9 x10 j + x10 (ix2 3 j)) := by
    rw [val_main_v72_apply, val_main_v71_apply, val_main_cst_4_apply, val_main_v70_apply, val_main_v69_apply,
      val_main_cst_3_apply, val_main_v68_apply, val_main_v67_apply, val_main_v66_apply, val_main_v61_apply,
      val_main_v12_apply, val_main_v60_apply, wp2_at, bg3_at, cnew_at, e, pre_at]
    exact logistic_spelt _
  rw [val_main_v74_apply, val_main_v73_apply, g, cnew_at]
  rfl

/-- Entry `(p, 0)` of the reference's read-out. -/
theorem out_at (p : Fin 1000000) (u : Fin 1) :
    val_main_v79 (F := Ideal) x0 x3 x4 x5 x6 x7 x8 x9 x10 x11 x12 (ix2 p u)
      = out (row (R := 1000000) (n := 8) x0 p) (row (R := 1000000) (n := 16) x3 p) (row (R := 1000000) (n := 16) x4 p)
          x5 x6 x7 x8 x9 x10 x11 x12 := by
  obtain rfl : u = 0 := Subsingleton.elim _ _
  unfold out
  rw [val_main_v79_apply, val_main_v76_apply, val_main_v78_apply, val_main_v77_apply]
  refine congrArg₂ (· + ·) (Finset.sum_congr rfl fun k _ => ?_) (congrArg x12 ?_)
  · have l : lidx_main_v76 (ix2 p 0) k = ix2 p k :=
      funext fun a => Fin.ext (by match a with | ⟨0, _⟩ => rfl | ⟨1, _⟩ => rfl)
    have rr : ridx_main_v76 (ix2 p 0) k = ix2 k (0 : Fin 1) :=
      funext fun a => Fin.ext (by match a with | ⟨0, _⟩ => rfl | ⟨1, _⟩ => rfl)
    rw [l, rr, val_main_v75_apply, hnew_at, val_main_call0_v0_apply, val_main_call0_cst_apply]
    exact congrArg₂ (· * ·) (congrArg₂ max rfl Ideal.ofBits_zero_f32) rfl
  · exact funext fun a => Fin.ext (by match a with | ⟨0, _⟩ => rfl)

/-! ## The three result arrays as whole functions of the arguments -/

theorem cnew_all :
    val_main_v55 (F := Ideal) x0 x3 x4 x5 x6 x7 x8 x9 x10 = cnewAll (R := 1000000) x0 x3 x4 x5 x6 x7 x8 x9 x10 :=
  funext fun i => by
    obtain ⟨p, j, rfl⟩ : ∃ (p : Fin 1000000) (j : Fin 16), i = ix2 p j := ⟨i 0, i 1, eq_ix2 i⟩
    exact cnew_at x0 x3 x4 x5 x6 x7 x8 x9 x10 p j

theorem hnew_all :
    val_main_v74 (F := Ideal) x0 x3 x4 x5 x6 x7 x8 x9 x10 = hnewAll (R := 1000000) x0 x3 x4 x5 x6 x7 x8 x9 x10 :=
  funext fun i => by
    obtain ⟨p, j, rfl⟩ : ∃ (p : Fin 1000000) (j : Fin 16), i = ix2 p j := ⟨i 0, i 1, eq_ix2 i⟩
    exact hnew_at x0 x3 x4 x5 x6 x7 x8 x9 x10 p j

theorem out_all :
    val_main_v79 (F := Ideal) x0 x3 x4 x5 x6 x7 x8 x9 x10 x11 x12
      = outAll (R := 1000000) x0 x3 x4 x5 x6 x7 x8 x9 x10 x11 x12 :=
  funext fun i => by
    obtain ⟨p, u, rfl⟩ : ∃ (p : Fin 1000000) (u : Fin 1), i = ix2 p u := ⟨i 0, i 1, eq_ix2 i⟩
    exact out_at x0 x3 x4 x5 x6 x7 x8 x9 x10 x11 x12 p u

end Cert.ReferenceIdeal.RefCell

end
-- ==== Proof.lean ====
/-
  The kernel and the reference compute one peephole LSTM step with a linear read-out for 1,000,000 graph nodes
  (the graph convolution has a single Chebyshev term, so no edge is ever read): from a node's feature row `x`,
  hidden row `h` and cell row `c`,

      g     = x · Wx + h · Wh + bx + bh                       (64 gate pre-activations),
      cnew  = σ(g_f + wp₁ ∘ c + b₁) ∘ c + σ(g_i + wp₀ ∘ c + b₀) ∘ tanh (g_c + b₂),
      hnew  = σ(g_o + wp₂ ∘ cnew + b₃) ∘ tanh cnew,
      out   = max(hnew, 0) · W_lin + b_lin.

  The kernel walks the nodes in 500 tiles of 2000, narrows the matrix products' operands to bf16 (the identity on
  extended reals) and adds both biases after both products; the reference works on all nodes at once, adds each
  bias to its own product, and spells the logistic function out. Over the extended reals the two agree entry by
  entry: the only law used is that addition is commutative and associative, so the finiteness of the inputs is
  never opened.

  `Proof/Cell.lean` states the step for one node; `Proof/KernelBlock.lean` reads the kernel's stored tiles as that
  step; `Proof/KernelArray.lean` passes from tiles to the whole result arrays over the generated frame run;
  `Proof/RefCell.lean` reads the reference's run as the same step. The frames of the two kernel programs are the
  generated ones, the reference's frame is its generated run with the results dropped, and the idealized kernel is the
  kernel's own text (no rewrite to account for).
-/
import proofs.«144452_j25890062860561_2_alg».proof.Defs
import proofs.«144452_j25890062860561_2_alg».proof.Proof.Gen.Kernel
import proofs.«144452_j25890062860561_2_alg».proof.Proof.Gen.Kernel.Skeleton
import proofs.«144452_j25890062860561_2_alg».proof.Proof.Gen.Kernel.Launch
import proofs.«144452_j25890062860561_2_alg».proof.Proof.Gen.Kernel.Points
import proofs.«144452_j25890062860561_2_alg».proof.Proof.Gen.Kernel.Frame
import proofs.«144452_j25890062860561_2_alg».proof.Proof.Gen.KernelIdeal
import proofs.«144452_j25890062860561_2_alg».proof.Proof.Gen.KernelIdeal.Skeleton
import proofs.«144452_j25890062860561_2_alg».proof.Proof.Gen.KernelIdeal.Launch
import proofs.«144452_j25890062860561_2_alg».proof.Proof.Gen.KernelIdeal.Points
import proofs.«144452_j25890062860561_2_alg».proof.Proof.Gen.KernelIdeal.Frame
import proofs.«144452_j25890062860561_2_alg».proof.Proof.Gen.ReferenceIdeal
import proofs.«144452_j25890062860561_2_alg».proof.Proof.Gen.Pre_finite_inputs
import proofs.«144452_j25890062860561_2_alg».proof.Proof.Gen.KernelIdeal.Value
import proofs.«144452_j25890062860561_2_alg».proof.Proof.Gen.ReferenceIdeal.Run
import proofs.«144452_j25890062860561_2_alg».proof.Proof.Gen.ReferenceIdeal.Read
import proofs.«144452_j25890062860561_2_alg».proof.Proof.KernelArray
import proofs.«144452_j25890062860561_2_alg».proof.Proof.RefCell
import Idealize.ShloMosaic.Adequacy
import Idealize.ShloMosaic.Init

noncomputable section

namespace Cert.Proof

open Idealize.ShloMosaic Idealize.SL.Sem

/-- The kernel as printed runs to the end, faults nowhere and leaves its arguments alone. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a straight line of whole-array operations: its run, with the three results forgotten. -/
theorem frame_reference : Cert.frame_ReferenceIdeal := fun m ρ _ =>
  (θ_run Cert.ReferenceIdeal.defs _ _).mono (fun _ h c => (h c).2.2.2)
    (Cert.ReferenceIdeal.Value.run (F := Ideal) m ρ)

/-- Nothing of the kernel was rewritten on the way to its reading over the extended reals. -/
theorem preserves : Cert.preserves_Kernel_KernelIdeal := trivial

/-- From memories that agree on the arguments both programs end with the read-out, the new hidden state and the new
    cell state of every node in their three results. -/
theorem algebraic : Cert.algebraic_KernelIdeal_ReferenceIdeal := by
  intro m ρ m' ρ' _ hagree
  refine ⟨fun c => Cert.KernelIdeal.Whole.outOf m c, fun c => Cert.KernelIdeal.Whole.hnewOf m c,
    fun c => Cert.KernelIdeal.Whole.cnewOf m c, Cert.KernelIdeal.Whole.run m ρ, ?_⟩
  refine (θ_run Cert.ReferenceIdeal.defs _ _).mono (fun _ h c => ?_)
    (Cert.ReferenceIdeal.Value.run (F := Ideal) m' ρ')
  obtain ⟨a0, -, -, a3, a4, a5, a6, a7, a8, a9, a10, a11, a12⟩ := hagree c
  refine ⟨(h c).1.trans ?_, (h c).2.1.trans ?_, (h c).2.2.1.trans ?_, (h c).2.2.2⟩
  · rw [Cert.ReferenceIdeal.Read.val_main_v79_eq, Cert.ReferenceIdeal.RefCell.out_all, a0, a3, a4, a5, a6, a7, a8, a9,
      a10, a11, a12]
  · rw [Cert.ReferenceIdeal.Read.val_main_v74_eq, Cert.ReferenceIdeal.RefCell.hnew_all, a0, a3, a4, a5, a6, a7, a8, a9,
      a10]
  · rw [Cert.ReferenceIdeal.Read.val_main_v55_eq, Cert.ReferenceIdeal.RefCell.cnew_all, a0, a3, a4, a5, a6, a7, a8, a9,
      a10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
